-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg1 : FVec F S8192x8192 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_cst_6 : FVec F S_ .f32 := constant S_ .f32 0x322BCC77#32
  let main_v19 : FVec F S8192x8192 .f32 := broadcastInDim S8192x8192 ![] bcast_S_S8192x8192 main_cst_6
  let main_v20 : FVec F S8192x8192 .f32 := addf main_arg1 main_v19
  let main_cst_7 : FVec F S_ .f32 := constant S_ .f32 0x00000000#32
  let main_v21 : FVec F S8192x8192 .f32 := broadcastInDim S8192x8192 ![] bcast_S_S8192x8192 main_cst_7
  let main_v22 : IVec S8192x8192 1 := cmpf .ogt main_v20 main_v21
  let main_c_8 : IVec S_ 1 := constantI S_ 1 1#1
  let main_v23 : IVec S_ 1 := (fun x v => Host.reduce IntOp.andi x v reducesTo_S8192x8192_S_d0_1 h_S_) main_v22 main_c_8
  let main_v24 : IVec S_ 1 := andi main_v18 main_v23
  main_v24

def fn {F : FTy → Type} [FloatOps F] (main_arg0 : FVec F S8192x512 .f32) (main_arg1 : FVec F S8192x8192 .f32) (main_arg2 : FVec F S512x512 .f32) (main_arg3 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩
abbrev S1024x1024 : Shape := ⟨2, ![1024, 1024]⟩

abbrev nBuf : Space → Nat
  | .hbm => 8
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S8192x512, .bf16⟩
  | .hbm, ⟨5, _⟩ => ⟨S8192x512, .bf16⟩
  | .hbm, ⟨6, _⟩ => ⟨S1x512, .f32⟩
  | .hbm, ⟨7, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x1024, .f32⟩
  | .local _ .vmem, ⟨14, _⟩ => ⟨S1024x1024, .f32⟩
  | .local _ .vmem, ⟨15, _⟩ => ⟨S1x512, .f32⟩
  | .local _ .vmem, ⟨16, _⟩ => ⟨S1024x512, .f32⟩
  | .local _ .vmem, ⟨17, _⟩ => ⟨S1024x512, .f32⟩
  | .local _ .vmem, ⟨18, _⟩ => ⟨S1024x1, .f32⟩
  | .local _ .vmem, ⟨19, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_19 : BitVec 32 := 0#32
  let v31 : BitVec 1 := Scalar.cmpi .ne v30 c0_i32_19
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  reduces_S1024x512_S1024 : S1024x512.Reduces [1] S1024
  shapeCasts_S1024_S1024x1 : S1024.ShapeCasts S1024x1
  broadcasts_S1024x1_S1024x512 : S1024x1.Broadcasts S1024x512
  packedbf16_S1024x512_S1024x512_0_0 : (Rect.unit (s := S1024x512) ![0, 0] S1024x512.size inb_S1024x512_S1024x512_0_0).PackedRows (EltTy.packing .bf16)
  shapeCasts_S512_S1x512 : S512.ShapeCasts S1x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x512_S1024x512_1_0_0_1_n_n_wf : DotDims.WF S1024x512 S512x512 S1024x512 [1] [0] [0] [1] [] []
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .bf16 = 32 ∨ (Rect.block (s := S8192x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .bf16 = 32 ∨ (Rect.block (s := S8192x512) S1024x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .f32 = 32 ∨ (Rect.block (s := S8192x8192) S1024x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S8192x512.size a
  hwx1_5 : ∀ i : grid1.Coords, EltTy.bits .f32 = 32 ∨ (Rect.block (s := S8192x512) S1024x512.size (cc1_transform_5 i) (hinb1_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S512x8192 : Shape := ⟨2, ![512, 8192]⟩
abbrev S1x512 : Shape := ⟨2, ![1, 512]⟩

abbrev nBuf : Space → Nat
  | .hbm => 43
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x512, .f32⟩
  | .hbm, ⟨14, _⟩ => ⟨S8192x512, .f32⟩
  | .hbm, ⟨15, _⟩ => ⟨S512x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x1, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x8192, .f32⟩
  | .hbm, ⟨38, _⟩ => ⟨S8192x8192, .f32⟩
  | .hbm, ⟨39, _⟩ => ⟨S8192x512, .f32⟩
  | .hbm, ⟨40, _⟩ => ⟨S1x512, .f32⟩
  | .hbm, ⟨41, _⟩ => ⟨S8192x512, .f32⟩
  | .hbm, ⟨42, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x512_S512x512_S8192x512_1_0_0_1_n_n_wf : DotDims.WF S8192x512 S512x512 S8192x512 [1] [0] [0] [1] [] []
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.Region0.lean ====
/- Region 0 of the kernel program: the projection-and-normalisation launch, a grid of 8 points. At each point the
   body reads a [1024,512] block of rows of the input and the whole [512,512] weight matrix, and writes two [1024,512]
   blocks: the product (rounded to bf16) and the product with every row divided by its Euclidean length (rounded to
   bf16). This file states, at ANY contents V of the buffers when the launch is entered, what each window's staging
   buffer holds after the body at each point, proves the body's triple against that, and packages it as the
   pipeline's proof data and body obligation. -/
import proofs.«146084_j48653389529424_2_alg».proof.Proof.Gen.KernelIdeal.Launch
import proofs.«146084_j48653389529424_2_alg».proof.Proof.Gen.KernelIdeal.Skeleton
import proofs.«146084_j48653389529424_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered: everything below is stated at this parameter
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows): its current staging buffer holds its block at every point, for any proof data whose
    array is V's and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix): the same; it is fetched at the first point only and its block index never
    moves, so the buffer still holds the block at every later point. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev rA : Rect S1024x512 := Rect.unit (s := S1024x512) ![0, 0] S1024x512.size inb_S1024x512_S1024x512_0_0
abbrev rB : Rect S512x512 := Rect.unit (s := S512x512) ![0, 0] S512x512.size inb_S512x512_S512x512_0_0

/-! ## What the body leaves in each output window's buffer -/

/-- Window 2's staging buffer after the body: its one store, of the rounded product of the two loaded blocks. -/
def out0_2 (x0 : Vec F S1024x512 .f32) (x1 : Vec F S512x512 .f32) : Vec F S1024x512 .bf16 :=
  View.canon [⟨rA, k0_pay2 (View.ld x0 rA) (View.ld x1 rB)⟩]

/-- Window 3's staging buffer after the body: its one store, of the rounded row-normalised product. -/
def out0_3 (x0 : Vec F S1024x512 .f32) (x1 : Vec F S512x512 .f32) : Vec F S1024x512 .bf16 :=
  View.canon [⟨rA, k0_pay3 (View.ld x0 rA) (View.ld x1 rB)⟩]

/-- One whole-buffer store covers the buffer. -/
theorem cover0_out (p0 : Vec F S1024x512 .bf16) (y : S1024x512.Idx) :
    ∃ pc ∈ ([⟨rA, p0⟩] : List (View.Piece (Elt F) S1024x512 .bf16)), y ∈ pc.1.set :=
  View.cover_of_tiled [⟨rA, p0⟩] S1024x512.size (by rfl) y

/-! ## The body's triple -/

set_option maxHeartbeats 1000000 in
/-- The body on whole staging memrefs, the inputs' at contents x0, x1 and the outputs' at anything, runs to the
    continuation holding the inputs' as they were and the outputs' at out0_2, out0_3 of the inputs. The body also
    loads each output buffer before storing to it; the loaded values are not used. -/
theorem sound_kernel0 (c : Dev nD) (E : Set ℕ) (i : grid0.Coords)
    (arg1 : Memref sig .tc .vmem S1024x512 .f32) (harg1 : arg1.IsWhole) (arg2 : Memref sig .tc .vmem S512x512 .f32) (harg2 : arg2.IsWhole)
    (arg3 : Memref sig .tc .vmem S1024x512 .bf16) (harg3 : arg3.IsWhole) (arg4 : Memref sig .tc .vmem S1024x512 .bf16) (harg4 : arg4.IsWhole)
    (x0 : Vec F S1024x512 .f32) (x1 : Vec F S512x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__proj_norm_kernel i arg1 harg1 arg2 harg2 arg3 harg3 arg4 harg4) K := by
  simp only [cc0__proj_norm_kernel_eq_skeleton]; unfold cc0__proj_norm_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_out _)
  iexists _; isplitr
  swap; · iexact H3
  ipureintro
  exact View.read_writes_eq_canon _ _ _ (cover0_out _)

/-! ## The pipeline's proof data -/

/-- The proof data of this launch on core c: the arrays as the region finds them; after the body at point t each
    input's buffer at its block and each output's at out0_2, out0_3 of the two input blocks; the invariant is the
    scoped rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Runs.lean ====
/-
  The second kernel (one query tile against one key tile per grid point, an 8 x 8 grid whose inner
  axis runs over key tiles): the blocks its windows hold at a point, the two branch conditions of
  its body in closed form, where its output window is idle, and the invariant it keeps between
  points spelt out buffer by buffer.

  The body zeroes its two accumulators (the running total weight of each query row, and the running
  weighted sum of value rows) when the key-tile coordinate is 0, adds this tile's contribution at
  every point, and divides and stores the output tile when the key-tile coordinate is 7.
-/
import proofs.«146084_j48653389529424_2_alg».proof.Proof.Gen.KernelIdeal.Launch
import proofs.«146084_j48653389529424_2_alg».proof.Proof.Gen.KernelIdeal.Skeleton
import proofs.«146084_j48653389529424_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (when it is not
    fetched its block index has not moved), for any proof data whose array is the entry contents and whose body
    leaves the block in place. One statement per input window. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- "The key-tile coordinate is 0": the condition under which the accumulators are zeroed. -/
abbrev cond1_0 (i : grid1.Coords) : Prop := (Scalar.cmpi .ne (Scalar.extui (Scalar.cmpi .eq (BitVec.ofNat 32 (i 1).val) 0#32)) 0#32) = 1#1
/-- It holds exactly at the points whose position is a multiple of 8. -/
theorem hcond1_0 : ∀ t : Fin cfg1.N, cond1_0 (grid1.coords t) ↔ t.val % 8 = 0 :=
  (by decide +kernel : ∀ t : Fin grid1.N, cond1_0 (grid1.coords t) ↔ t.val % 8 = 0)

/-- "The key-tile coordinate is 7": the condition under which the output tile is stored. -/
abbrev cond1_1 (i : grid1.Coords) : Prop := k1_cond2 i = 1#1
/-- It holds exactly at the points whose position is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Unless the key-tile coordinate is 7 the output window is idle (nothing is stored into it) and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- When it is 7 the output window is live. -/
theorem liveAt1_5 : ∀ t : Fin cfg1.N, cond1_1 (grid1.coords t) → cfg1.idle 5 (grid1.coords t) = false := by decide +kernel

/-! ## The memrefs the body is called with -/

/-- One staging buffer of the output window, through which its contents are stated (the choice does not matter). -/
abbrev VO1_5 : View sig .tc .vmem S1024x512 .f32 := (Memref.whole cc1_stg5_0 : Memref sig .tc .vmem S1024x512 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .f32 := win1_5.stage (cfg1.slots t 5)
abbrev hs1_5 (t : Fin cfg1.N) : (ms1_5 t).IsWhole := hstage1_5 ((cfg1.slots t 5).cast nbuf1_5)
/-- The two accumulators: whole scoped buffers of the kernel's own, passed beside the windows. -/
abbrev scM1_0 : Memref sig .tc .vmem S1024x1 .f32 := Memref.whole cc1_scratch0
abbrev scM1_1 : Memref sig .tc .vmem S1024x512 .f32 := Memref.whole cc1_scratch1
abbrev VS1_0 : View sig .tc .vmem S1024x1 .f32 := scM1_0.view
abbrev VS1_1 : View sig .tc .vmem S1024x512 .f32 := scM1_1.view

end Cert.KernelIdeal.Hand

end
-- ==== Proof.Region1RunA.lean ====
/-
  The second kernel's body run once in the case where the key-tile coordinate is 0: the accumulators are zeroed first, then this tile is added; nothing is stored into the output tile.
  The statement: on whole staging buffers holding the five input blocks, the body runs to the end
  leaving the inputs as they were and each buffer it stores into holding a list of written pieces;
  the lists are found by running the body symbolically.
-/
import proofs.«146084_j48653389529424_2_alg».proof.Proof.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the body's stores leave in the output tile's buffer (`L5`) and in the two accumulators
    (`LS0`: total weights, `LS1`: weighted sums), last store first, with the proof that the body runs to
    the continuation holding them. -/
noncomputable def kernelRun1_A (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) :
    Σ' (L5 : List (View.Piece (Elt F) S1024x512 .f32)), Σ' (LS0 : List (View.Piece (Elt F) S1024x1 .f32)), { LS1 : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.Region1RunB.lean ====
/-
  The second kernel's body run once in the case where the key-tile coordinate is strictly between 0 and 7: this tile is added to the accumulators the point before left; nothing is stored into the output tile.
  The statement: on whole staging buffers holding the five input blocks, the body runs to the end
  leaving the inputs as they were and each buffer it stores into holding a list of written pieces;
  the lists are found by running the body symbolically.
-/
import proofs.«146084_j48653389529424_2_alg».proof.Proof.Region1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the body's stores leave in the output tile's buffer (`L5`) and in the two accumulators
    (`LS0`: total weights, `LS1`: weighted sums), last store first, with the proof that the body runs to
    the continuation holding them. -/
noncomputable def kernelRun1_B (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) :
    Σ' (L5 : List (View.Piece (Elt F) S1024x512 .f32)), Σ' (LS0 : List (View.Piece (Elt F) S1024x1 .f32)), { LS1 : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.Region1RunC.lean ====
/-
  The second kernel's body run once in the case where the key-tile coordinate is 7: this tile is added to the accumulators the point before left, then the weighted sum is divided by the total weight, the bias row is added, and the result is stored into the output tile.
  The statement: on whole staging buffers holding the five input blocks, the body runs to the end
  leaving the inputs as they were and each buffer it stores into holding a list of written pieces;
  the lists are found by running the body symbolically.
-/
import proofs.«146084_j48653389529424_2_alg».proof.Proof.Region1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the body's stores leave in the output tile's buffer (`L5`) and in the two accumulators
    (`LS0`: total weights, `LS1`: weighted sums), last store first, with the proof that the body runs to
    the continuation holding them. -/
noncomputable def kernelRun1_C (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) :
    Σ' (L5 : List (View.Piece (Elt F) S1024x512 .f32)), Σ' (LS0 : List (View.Piece (Elt F) S1024x1 .f32)), { LS1 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.KernelIdeal.Hand

end
-- ==== Proof.Region1.lean ====
/-
  The second kernel, point by point: what each control case leaves in the output tile's buffer and
  in the two accumulators; the accumulation over the grid as a recursion on the point; the invariant
  between points (the two accumulators at what the point before left); and the proof data.
-/
import proofs.«146084_j48653389529424_2_alg».proof.Proof.Region1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves -/

/-- What this case leaves in the output tile's buffer: its pieces read back (none: a placeholder nothing consults, the window being idle and not written back at these points). -/
def out1_A_5 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) : Vec F S1024x512 .f32 :=
  VO1_5.read (Elt F) (VO1_5.writes (Elt F) VO1_5.junk (kernelRun1_A c i arg2 harg2 arg3 harg3 arg4 harg4 arg5 harg5 arg6 harg6 arg7 harg7 arg8 harg8 arg9 harg9 hc0 hc1 x0 x1 x2 x3 x4).1)

/-- The stores into the total-weight accumulator cover it. -/
theorem scover1_A_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4).2.1 S1024x1.size (by sl_kernel_rfl) y

/-- What this case leaves in the total-weight accumulator. -/
def sout1_A_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4).2.1)

/-- The stores into the weighted-sum accumulator cover it. -/
theorem scover1_A_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) (y : S1024x512.Idx) :
    ∃ pc ∈ (kernelRun1_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4).2.2.1 S1024x512.size (by sl_kernel_rfl) y

/-- What this case leaves in the weighted-sum accumulator. -/
def sout1_A_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) : Vec F S1024x512 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3 x4).2.2.1)

/-- What this case leaves in the output tile's buffer: its pieces read back (none: a placeholder nothing consults, the window being idle and not written back at these points). -/
def out1_B_5 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) : Vec F S1024x512 .f32 :=
  VO1_5.read (Elt F) (VO1_5.writes (Elt F) VO1_5.junk (kernelRun1_B c i arg2 harg2 arg3 harg3 arg4 harg4 arg5 harg5 arg6 harg6 arg7 harg7 arg8 harg8 arg9 harg9 hc0 hc1 x0 x1 x2 x3 x4 xs0 xs1).1)

/-- The stores into the total-weight accumulator cover it. -/
theorem scover1_B_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 xs0 xs1).2.1 S1024x1.size (by sl_kernel_rfl) y

/-- What this case leaves in the total-weight accumulator. -/
def sout1_B_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 xs0 xs1).2.1)

/-- The stores into the weighted-sum accumulator cover it. -/
theorem scover1_B_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) (y : S1024x512.Idx) :
    ∃ pc ∈ (kernelRun1_B c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 xs0 xs1).2.2.1 S1024x512.size (by sl_kernel_rfl) y

/-- What this case leaves in the weighted-sum accumulator. -/
def sout1_B_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) : Vec F S1024x512 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 x4 xs0 xs1).2.2.1)

/-- In the storing case the one store into the output tile covers it. -/
theorem cover1_C_5 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) (y : S1024x512.Idx) :
    ∃ pc ∈ (kernelRun1_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0 xs1).1 S1024x512.size (by sl_kernel_rfl) y

/-- What this case leaves in the output tile's buffer: its pieces read back. -/
def out1_C_5 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) : Vec F S1024x512 .f32 :=
  VO1_5.read (Elt F) (VO1_5.writes (Elt F) VO1_5.junk (kernelRun1_C c i arg2 harg2 arg3 harg3 arg4 harg4 arg5 harg5 arg6 harg6 arg7 harg7 arg8 harg8 arg9 harg9 hc0 hc1 x0 x1 x2 x3 x4 xs0 xs1).1)

/-- The stores into the total-weight accumulator cover it. -/
theorem scover1_C_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0 xs1).2.1 S1024x1.size (by sl_kernel_rfl) y

/-- What this case leaves in the total-weight accumulator. -/
def sout1_C_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 xs0 xs1).2.1)

/-- The stores into the weighted-sum accumulator cover it. -/
theorem scover1_C_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) (y : S1024x512.Idx) :
    ∃ pc ∈ (kernelRun1_C c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0 xs1).2.2.1 S1024x512.size (by sl_kernel_rfl) y

/-- What this case leaves in the weighted-sum accumulator. -/
def sout1_C_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) : Vec F S1024x512 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 x4 xs0 xs1).2.2.1)

/-! ## The accumulation over the grid -/

/-- What the output tile's buffer and the two accumulators hold after the body at position `n`
    (in that order): the case the position selects, run on the point's input blocks, the
    accumulators taken from position `n - 1` when the key-tile coordinate is not 0. -/
def outsAt1 (c : Dev nD) : (n : ℕ) → n < cfg1.N → Vec F S1024x512 .f32 × Vec F S1024x1 .f32 × Vec F S1024x512 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)

/-- At a point whose key-tile coordinate is 0. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- At a point whose key-tile coordinate is strictly between 0 and 7. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point whose key-tile coordinate is 7. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The class's invariant (every scoped buffer that is no staging buffer of this kernel at some
    contents, and the generator register at some state), buffer by buffer, the two accumulators as
    memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- Before position `n`: at the first point the class's invariant; afterwards the same with the two
    accumulators at what the point before left in them. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The proof data -/

/-- The arrays as the region finds them; after the body each input's buffer at its block and the
    output tile's at `outsAt1`'s first component; the invariant `PhiS1`; nothing owed. The two windows
    that read the scaled rows (as queries and as keys) share one array and hold half of it each. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Cert.KernelIdeal.Hand

end
-- ==== Proof.Region1Body.lean ====
/-
  The second kernel's body obligation: at every point, from the invariant, the inputs' buffers at
  their blocks and the output tile's buffer, the body runs and gives back the invariant at the next
  point and every buffer at what the proof data say; by the three control cases.
-/
import proofs.«146084_j48653389529424_2_alg».proof.Proof.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' buffers hold their blocks; the position says which case the
    point is in; the invariant hands the body the accumulators at what the point before left (at
    anything at the first point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · by_cases h1 : t.val % 8 = 7
    · exfalso; omega
    · rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        iintro ⟨⟨⟨Ho1, Ho2, Ho3, Ho4, Ho5, Ho6, Ho7, HS0, HS1⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [Ho1 Ho2 Ho3 Ho4 Ho5 Ho6 Ho7 HS0 HS1 Hg]
        · isplitl [Ho1 Ho2 Ho3 Ho4 Ho5 Ho6 Ho7 HS0 HS1]
          · isplitl [Ho1]; · iexact Ho1
            isplitl [Ho2]; · iexact Ho2
            isplitl [Ho3]; · iexact Ho3
            isplitl [Ho4]; · iexact Ho4
            isplitl [Ho5]; · iexact Ho5
            isplitl [Ho6]; · iexact Ho6
            isplitl [Ho7]; · iexact Ho7
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨Ho1, Ho2, Ho3, Ho4, Ho5, Ho6, Ho7, HS0, HS1⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [Ho1 Ho2 Ho3 Ho4 Ho5 Ho6 Ho7 HS0 HS1 Hg]
        · isplitl [Ho1 Ho2 Ho3 Ho4 Ho5 Ho6 Ho7 HS0 HS1]
          · isplitl [Ho1]; · iexact Ho1
            isplitl [Ho2]; · iexact Ho2
            isplitl [Ho3]; · iexact Ho3
            isplitl [Ho4]; · iexact Ho4
            isplitl [Ho5]; · iexact Ho5
            isplitl [Ho6]; · iexact Ho6
            isplitl [Ho7]; · iexact Ho7
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 8 = 7
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0 sout1_C_1; (try dsimp only)
      rw [PhiS1_castSucc V c t, PhiS1_pos V c _ _ hz]
      iintro ⟨⟨⟨Ho1, Ho2, Ho3, Ho4, Ho5, Ho6, Ho7, HS0, HS1⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [Ho1 Ho2 Ho3 Ho4 Ho5 Ho6 Ho7 HS0 HS1 Hg]
      · isplitl [Ho1 Ho2 Ho3 Ho4 Ho5 Ho6 Ho7 HS0 HS1]
        · isplitl [Ho1]; · iexact Ho1
          isplitl [Ho2]; · iexact Ho2
          isplitl [Ho3]; · iexact Ho3
          isplitl [Ho4]; · iexact Ho4
          isplitl [Ho5]; · iexact Ho5
          isplitl [Ho6]; · iexact Ho6
          isplitl [Ho7]; · iexact Ho7
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0 sout1_B_1; (try dsimp only)
      rw [PhiS1_castSucc V c t, PhiS1_pos V c _ _ hz]
      iintro ⟨⟨⟨Ho1, Ho2, Ho3, Ho4, Ho5, Ho6, Ho7, HS0, HS1⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [Ho1 Ho2 Ho3 Ho4 Ho5 Ho6 Ho7 HS0 HS1 Hg]
      · isplitl [Ho1 Ho2 Ho3 Ho4 Ho5 Ho6 Ho7 HS0 HS1]
        · isplitl [Ho1]; · iexact Ho1
          isplitl [Ho2]; · iexact Ho2
          isplitl [Ho3]; · iexact Ho3
          isplitl [Ho4]; · iexact Ho4
          isplitl [Ho5]; · iexact Ho5
          isplitl [Ho6]; · iexact Ho6
          isplitl [Ho7]; · iexact Ho7
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulators' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨Ho1, Ho2, Ho3, Ho4, Ho5, Ho6, Ho7, HS0, HS1⟩, Hg⟩
  isplitl [Ho1 Ho2 Ho3 Ho4 Ho5 Ho6 Ho7 HS0 HS1]
  · isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [HS0]; · iexists _; iexact HS0
    iexists _; iexact HS1
  iexact Hg

end Cert.KernelIdeal.Hand

end
-- ==== Proof.Region1Arrays.lean ====
/-
  The second kernel's arrays among the main program's buffers. Two of its windows (the query rows
  and the key rows) read ONE array, the rows scaled to unit length; each window holds half of it.
  At the region's entry the buffers split into the six windows' arrays and the rest; at its exit
  they are put back, the two halves joined, the result array at what the write-backs left.
-/
import proofs.«146084_j48653389529424_2_alg».proof.Proof.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The shares the windows hold their arrays at: the two readers of the shared array a half each. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl
theorem share1_4 (c : Dev nD) : (dat1 V c).share 4 = fullShare := rfl
theorem share1_5 (c : Dev nD) : (dat1 V c).share 5 = fullShare := rfl

/-- The five distinct buffers behind the six windows, listed. -/
theorem arrBufs1_eq (c : Dev nD) (Vr : (b : Ref sig .tc) → Buf (Elt F) ((c : Thread nD τ).loc b)) :
    (Pipeline.arrBufs spec1 c Vr : sProp 𝕄)
      = iprop((((c : Thread nD τ).loc main_v0_1) ↦{fullShare} Vr main_v0_1) ∗ (((c : Thread nD τ).loc main_v0_0) ↦{fullShare} Vr main_v0_0) ∗ (((c : Thread nD τ).loc main_arg1) ↦{fullShare} Vr main_arg1) ∗ (((c : Thread nD τ).loc main_v1) ↦{fullShare} Vr main_v1) ∗ (((c : Thread nD τ).loc main_v2) ↦{fullShare} Vr main_v2)) := by
  unfold Pipeline.arrBufs
  rw [BI.bigSep_eq_bigSepL_of_eq [main_v0_1, main_v0_0, main_arg1, main_v1, main_v2] (by decide) (by decide)]; rfl

/-- The six windows' arrays, listed, each whole at its share. -/
theorem arrays1_eq (c : Dev nD) (Fv : (w : Fin cfg1.W) → Buf (Elt F) ((cfg1.win w).arr.view.loc (c.tc : Thread nD τ))) :
    ((dat1 V c).arrays Fv : sProp 𝕄)
      = iprop((((c : Thread nD τ).loc main_v0_1) ↦{fullShare.left} Fv 0) ∗ (((c : Thread nD τ).loc main_v0_1) ↦{fullShare.right} Fv 1) ∗ (((c : Thread nD τ).loc main_v0_0) ↦{fullShare} Fv 2) ∗ (((c : Thread nD τ).loc main_arg1) ↦{fullShare} Fv 3) ∗ (((c : Thread nD τ).loc main_v1) ↦{fullShare} Fv 4) ∗ (((c : Thread nD τ).loc main_v2) ↦{fullShare} Fv 5)) := by
  unfold Dat.arrays
  rw [bigSep_W1, (arr_whole1 0).set_eq_univ, (arr_whole1 2).set_eq_univ, (arr_whole1 3).set_eq_univ, (arr_whole1 4).set_eq_univ, (arr_whole1 5).set_eq_univ,
    share1_0, share1_1, share1_2, share1_3, share1_4, share1_5]

/-- ENTRY: the unscoped buffers at the entry contents are the kernel's arrays at those contents and the rest. -/
theorem arrays1_of_unscopedBufs (c : Dev nD) :
    (unscopedBufs c (V c) : sProp 𝕄) ⊢ iprop((dat1 V c).arrays (dat1 V c).A ∗ Pipeline.unscopedRest spec1 c (V c)) := by
  rw [Pipeline.unscopedBufs_split₀ cfgs 1 (by decide) c (V c)]
  show iprop((Pipeline.arrBufs spec1 c (V c) : sProp 𝕄) ∗ Pipeline.unscopedRest spec1 c (V c)) ⊢ _
  rw [arrays1_eq, arrBufs1_eq]
  refine sep_mono ?_ .rfl
  iintro ⟨Hu, Hh, Ha, Hb, Ho⟩
  ihave Hs := (pointsTo_share (PosShare.mem_left_op_right fullShare)).1 $$ Hu
  icases Hs with ⟨Hl, Hr⟩
  isplitl [Hl]; · iexact Hl
  isplitl [Hr]; · iexact Hr
  isplitl [Hh]; · iexact Hh
  isplitl [Ha]; · iexact Ha
  isplitl [Hb]; · iexact Hb
  iexact Ho

/-- EXIT: the arrays at their final contents (the inputs as entered, the result at what the write-backs left)
    and the rest are the unscoped buffers at any contents that have the result there and agree elsewhere. -/
theorem unscopedBufs_of_arrays1 (c : Dev nD) (V' : (b : Ref sig .tc) → Buf (Elt F) ((c : Thread nD τ).loc b))
    (hres : V' main_v2 = (dat1 V c).arrAt 5 cfg1.N) (hrest : ∀ b, b ≠ main_v2 → V' b = V c b) :
    iprop((dat1 V c).arrays ((dat1 V c).arrAt · cfg1.N) ∗ Pipeline.unscopedRest spec1 c (V c)) ⊢ (unscopedBufs c V' : sProp 𝕄) := by
  rw [Pipeline.unscopedBufs_split₀ cfgs 1 (by decide) c V']
  show _ ⊢ iprop((Pipeline.arrBufs spec1 c V' : sProp 𝕄) ∗ Pipeline.unscopedRest spec1 c V')
  rw [arrays1_eq, arrBufs1_eq]
  refine sep_mono ?_ (Entails.of_eq ?_)
  · rw [(dat1 V c).arrAt_in 0 rfl _, (dat1 V c).arrAt_in 1 rfl _, (dat1 V c).arrAt_in 2 rfl _, (dat1 V c).arrAt_in 3 rfl _, (dat1 V c).arrAt_in 4 rfl _,
      hres, hrest main_v0_1 (by decide), hrest main_v0_0 (by decide), hrest main_arg1 (by decide), hrest main_v1 (by decide)]
    iintro ⟨Hl, Hr, Hh, Ha, Hb, Ho⟩
    isplitl [Hl Hr]
    · iapply (pointsTo_share (PosShare.mem_left_op_right fullShare)).2
      isplitl [Hl]; · iexact Hl
      iexact Hr
    isplitl [Hh]; · iexact Hh
    isplitl [Ha]; · iexact Ha
    isplitl [Hb]; · iexact Hb
    iexact Ho
  · unfold Pipeline.unscopedRest
    refine bigSep_congr fun b hb => ?_
    rw [hrest b (fun e => (Finset.mem_sdiff.mp hb).2 (Finset.mem_image.mpr ⟨5, Finset.mem_univ _, e ▸ rfl⟩))]

end Cert.KernelIdeal.Hand

end
-- ==== Proof.Run.lean ====
/-
  The whole program as a list of segments: the first kernel's region, the host reshape of the bias
  to a row, the second kernel's region. Between segments every buffer of the main program is held
  at named contents: the launch contents; then the first kernel's two results at what its
  write-backs leave; then the reshaped bias; then the second kernel's result at what its
  write-backs leave. Every weakly fair execution terminates, and at the end every such buffer
  holds those last contents.
-/
import proofs.«146084_j48653389529424_2_alg».proof.Proof.Region0
import proofs.«146084_j48653389529424_2_alg».proof.Proof.Region1Body
import proofs.«146084_j48653389529424_2_alg».proof.Proof.Region1Arrays
import proofs.«146084_j48653389529424_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
abbrev Vin0 : (c : Dev nD) → (b : Ref sig .tc) → Buf (Elt F) ((c : Thread nD τ).loc b) := fun c b => W0 m ρ c b
/-- After the first kernel: its arrays at what its write-backs leave, every other buffer as before. -/
def W1 (c : Dev nD) : Valuation τ sig (Elt F) :=
  Pipeline.withArrays spec0 c (W0 m ρ c) fun w => (dat0 (Vin0 m ρ) c).arrAt w cfg0.N
theorem W1_arr (c : Dev nD) (w : Fin cfg0.W) :
    W1 m ρ c (Proc.devRef .tc (Pipeline.arrRef spec0 w)) = (dat0 (Vin0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vout0 : (c : Dev nD) → (b : Ref sig .tc) → Buf (Elt F) ((c : Thread nD τ).loc b) := fun c b => W1 m ρ c b
theorem hF0 (c : Dev nD) (w : Fin cfg0.W) : (dat0 (Vin0 m ρ) c).arrAt w cfg0.N = Vout0 m ρ c (Pipeline.arrRef spec0 w) :=
  (W1_arr m ρ c w).symm
theorem hrest0 (c : Dev nD) : ∀ b, b ∉ Finset.univ.image (Pipeline.arrRef spec0) → Vout0 m ρ c b = Vin0 m ρ c b :=
  fun b hb => W1_of_ne m ρ c b fun w e => hb (Finset.mem_image.mpr ⟨w, Finset.mem_univ _, e⟩)
/-- After the host reshape of the bias. -/
def W2 (c : Dev nD) : Valuation τ sig (Elt F) := StableHlo.after hostOps1 (W1 m ρ c)
abbrev Vin1 : (c : Dev nD) → (b : Ref sig .tc) → Buf (Elt F) ((c : Thread nD τ).loc b) := fun c b => W2 m ρ c b
/-- What the second kernel leaves in its result array. -/
def res1 (c : Dev nD) : Buf (Elt F) ((c : Thread nD τ).loc main_v2) := (dat1 (Vin1 m ρ) c).arrAt 5 cfg1.N
/-- After the second kernel: its result array at that, every other buffer as before (its other arrays are inputs). -/
def W3 (c : Dev nD) : Valuation τ sig (Elt F) := Function.update (W2 m ρ c) main_v2 (res1 m ρ c)
abbrev Vout1 : (c : Dev nD) → (b : Ref sig .tc) → Buf (Elt F) ((c : Thread nD τ).loc b) := fun c b => W3 m ρ c b
theorem W3_res (c : Dev nD) : W3 m ρ c (Proc.devRef .tc main_v2) = res1 m ρ c := by
  unfold W3; exact Function.update_self ..
theorem W3_of_ne (c : Dev nD) (b : Ref sig .tc) (hb : b ≠ main_v2) : W3 m ρ c (Proc.devRef .tc b) = W2 m ρ c (Proc.devRef .tc b) := by
  unfold W3; exact Function.update_of_ne (StableHlo.devRef_ne_of_ne hb) ..

/-! ## The proof data family and the thread state -/

/-- Each pipeline's proof data at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (Vin0 m ρ) c
  | ⟨1, _⟩ => fun c => dat1 (Vin1 m ρ) c
abbrev 𝒱h : Variants := Variants.none
abbrev Lh : GSem nD τ sig → Finset Unit := fun _ => ∅
abbrev lvh : GSem nD τ sig → Unit → ℕ := fun _ _ => 0
/-- What rides beside the buffers through every segment: the generator register at some state and the core owing nothing. -/
abbrev Rside (c : Dev nD) : sProp 𝕄 := iprop((∃ r, prngReg c r) ∗ ∃ W, owes (c : Thread nD τ) (0 : CellTallies nD τ sig Unit) W)
/-- The host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's debts: every unscoped buffer at the last contents, the generator register at some state. -/
abbrev Tlast (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first kernel's region: its arrays split out of the unscoped buffers and put back at the exit contents. -/
def reg0 : Pipeline.RegionSeg (pcfgs (F := F)) adm (pdats m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ Lh lvh 0 fun _ _ => rfl
  pre c := iprop(StableHlo.held (c : Thread nD τ) (Pipeline.ucRefs τ sig) (W0 m ρ c) ∗ Rside c)
  post c := iprop(StableHlo.held (c : Thread nD τ) (Pipeline.ucRefs τ sig) (W1 m ρ c) ∗ Rside c)
  X c := iprop(∃ r, prngReg c r)
  Y c := iprop(∃ r, prngReg c r)
  Z c := Pipeline.unscopedRest (Ix := Unit) (Name := ℕ) (U := Pipeline.UD sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region. -/
def reg1 : Pipeline.RegionSeg (pcfgs (F := F)) adm (pdats m ρ) () defs₀ 𝒱h Lh lvh 1 where
  win := winFacts₀1
  block_pos := block_pos1
  stage_whole := stage_whole1
  K := PEmpty
  osem k := k.elim
  ho := Pipeline.OwnSemFacts.none _
  hbody c := (body_obligation1 (Vin1 m ρ) c).loose
  hwaits := Pipeline.hwaits_of_owed_zero _ _ _ _ Lh lvh 1 fun _ _ => rfl
  pre c := iprop(StableHlo.held (c : Thread nD τ) (Pipeline.ucRefs τ sig) (W2 m ρ c) ∗ Rside c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (Vin1 m ρ c)
  hentry c := by
    rw [Pipeline.ownSems0_none]
    have hsplit : (unscopedBufs c (Vin1 m ρ c) : sProp 𝕄)
        ⊢ iprop((pdats m ρ 1 c).arrays ((pdats m ρ 1 c).arrAt · 0) ∗ Pipeline.unscopedRest spec1 c (Vin1 m ρ c)) :=
      arrays1_of_unscopedBufs (Vin1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (Vin1 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · (Pipeline.pin (pcfgs (F := F)) adm 1).N) ∗ Pipeline.unscopedRest spec1 c (Vin1 m ρ c))
        ⊢ (unscopedBufs c (Vout1 m ρ c) : sProp 𝕄) :=
      unscopedBufs_of_arrays1 (Vin1 m ρ) c (Vout1 m ρ c) (W3_res m ρ c) (fun b hb => W3_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱h Lh lvh) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing
    faulting, and every final state holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj embL defs₀ 𝒱h Lh lvh m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rside c)) (Tₙ := Tlast m ρ)
    (hch := ⟨fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.Hand

end
-- ==== Proof.RunReads.lean ====
/-
  Reading the last boundary's contents back: no host operation and no kernel writes an argument
  array (a kernel reads one through an input window or passes it by), so each argument holds at the
  end what it held at launch. Hence the frame: every weakly fair execution terminates and leaves
  the four arguments unchanged.
-/
import proofs.«146084_j48653389529424_2_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The host reshape writes only the bias row. -/
theorem W2_of (c : Dev nD) (r : Ref sig .tc) (h : r ∉ hostOps1_W) : W2 m ρ c (Proc.devRef .tc r) = W1 m ρ c (Proc.devRef .tc r) := by
  unfold W2; exact StableHlo.after_of_writes_sub hostOps1 _ hostOps1_writes h

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := (W1_arr m ρ c 0).trans (((dat0 (Vin0 m ρ) c).arrAt_in 0 rfl _).trans (A_eq0 (Vin0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := W1_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := (W1_arr m ρ c 1).trans (((dat0 (Vin0 m ρ) c).arrAt_in 1 rfl _).trans (A_eq0 (Vin0 m ρ) c 1))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := W1_of_ne m ρ c main_arg3 (by decide)
    _ = m ((c : Thread nD τ).loc main_arg3) := rfl

/-- The run, read at the result and the four arguments: the result array ends at what the second kernel's
    write-backs leave, the arguments as launched. -/
theorem run_read : θ_run defs (onTc (τ := τ) (main (F := F))) ⟨m, fun _ => 0, ρ⟩ (fun r => ∀ c : Dev nD,
      r.2.mem ((c.tc : Thread nD τ).loc main_v2) = res1 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (W3_res m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_read m ρ)

end Cert.KernelIdeal.Hand

end
-- ==== Proof.Region0K.lean ====
/- Region 0 of the kernel program: the projection-and-normalisation launch, a grid of 8 points. At each point the
   body reads a [1024,512] block of rows of the input and the whole [512,512] weight matrix, and writes two [1024,512]
   blocks: the product (rounded to bf16) and the product with every row divided by its Euclidean length (rounded to
   bf16). This file states, at ANY contents V of the buffers when the launch is entered, what each window's staging
   buffer holds after the body at each point, proves the body's triple against that, and packages it as the
   pipeline's proof data and body obligation. -/
import proofs.«146084_j48653389529424_2_alg».proof.Proof.Gen.Kernel.Launch
import proofs.«146084_j48653389529424_2_alg».proof.Proof.Gen.Kernel.Skeleton
import proofs.«146084_j48653389529424_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered: everything below is stated at this parameter
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows): its current staging buffer holds its block at every point, for any proof data whose
    array is V's and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix): the same; it is fetched at the first point only and its block index never
    moves, so the buffer still holds the block at every later point. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev rA : Rect S1024x512 := Rect.unit (s := S1024x512) ![0, 0] S1024x512.size inb_S1024x512_S1024x512_0_0
abbrev rB : Rect S512x512 := Rect.unit (s := S512x512) ![0, 0] S512x512.size inb_S512x512_S512x512_0_0

/-! ## What the body leaves in each output window's buffer -/

/-- Window 2's staging buffer after the body: its one store, of the rounded product of the two loaded blocks. -/
def out0_2 (x0 : Vec F S1024x512 .f32) (x1 : Vec F S512x512 .f32) : Vec F S1024x512 .bf16 :=
  View.canon [⟨rA, k0_pay2 (View.ld x0 rA) (View.ld x1 rB)⟩]

/-- Window 3's staging buffer after the body: its one store, of the rounded row-normalised product. -/
def out0_3 (x0 : Vec F S1024x512 .f32) (x1 : Vec F S512x512 .f32) : Vec F S1024x512 .bf16 :=
  View.canon [⟨rA, k0_pay3 (View.ld x0 rA) (View.ld x1 rB)⟩]

/-- One whole-buffer store covers the buffer. -/
theorem cover0_out (p0 : Vec F S1024x512 .bf16) (y : S1024x512.Idx) :
    ∃ pc ∈ ([⟨rA, p0⟩] : List (View.Piece (Elt F) S1024x512 .bf16)), y ∈ pc.1.set :=
  View.cover_of_tiled [⟨rA, p0⟩] S1024x512.size (by rfl) y

/-! ## The body's triple -/

set_option maxHeartbeats 1000000 in
/-- The body on whole staging memrefs, the inputs' at contents x0, x1 and the outputs' at anything, runs to the
    continuation holding the inputs' as they were and the outputs' at out0_2, out0_3 of the inputs. The body also
    loads each output buffer before storing to it; the loaded values are not used. -/
theorem sound_kernel0 (c : Dev nD) (E : Set ℕ) (i : grid0.Coords)
    (arg1 : Memref sig .tc .vmem S1024x512 .f32) (harg1 : arg1.IsWhole) (arg2 : Memref sig .tc .vmem S512x512 .f32) (harg2 : arg2.IsWhole)
    (arg3 : Memref sig .tc .vmem S1024x512 .bf16) (harg3 : arg3.IsWhole) (arg4 : Memref sig .tc .vmem S1024x512 .bf16) (harg4 : arg4.IsWhole)
    (x0 : Vec F S1024x512 .f32) (x1 : Vec F S512x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__proj_norm_kernel i arg1 harg1 arg2 harg2 arg3 harg3 arg4 harg4) K := by
  simp only [cc0__proj_norm_kernel_eq_skeleton]; unfold cc0__proj_norm_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_out _)
  iexists _; isplitr
  swap; · iexact H3
  ipureintro
  exact View.read_writes_eq_canon _ _ _ (cover0_out _)

/-! ## The pipeline's proof data -/

/-- The proof data of this launch on core c: the arrays as the region finds them; after the body at point t each
    input's buffer at its block and each output's at out0_2, out0_3 of the two input blocks; the invariant is the
    scoped rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Region1RunsK.lean ====
/-
  The second kernel (one query tile against one key tile per grid point, an 8 x 8 grid whose inner
  axis runs over key tiles): the blocks its windows hold at a point, the two branch conditions of
  its body in closed form, where its output window is idle, and the invariant it keeps between
  points spelt out buffer by buffer.

  The body zeroes its two accumulators (the running total weight of each query row, and the running
  weighted sum of value rows) when the key-tile coordinate is 0, adds this tile's contribution at
  every point, and divides and stores the output tile when the key-tile coordinate is 7.
-/
import proofs.«146084_j48653389529424_2_alg».proof.Proof.Gen.Kernel.Launch
import proofs.«146084_j48653389529424_2_alg».proof.Proof.Gen.Kernel.Skeleton
import proofs.«146084_j48653389529424_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (when it is not
    fetched its block index has not moved), for any proof data whose array is the entry contents and whose body
    leaves the block in place. One statement per input window. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- "The key-tile coordinate is 0": the condition under which the accumulators are zeroed. -/
abbrev cond1_0 (i : grid1.Coords) : Prop := (Scalar.cmpi .ne (Scalar.extui (Scalar.cmpi .eq (BitVec.ofNat 32 (i 1).val) 0#32)) 0#32) = 1#1
/-- It holds exactly at the points whose position is a multiple of 8. -/
theorem hcond1_0 : ∀ t : Fin cfg1.N, cond1_0 (grid1.coords t) ↔ t.val % 8 = 0 :=
  (by decide +kernel : ∀ t : Fin grid1.N, cond1_0 (grid1.coords t) ↔ t.val % 8 = 0)

/-- "The key-tile coordinate is 7": the condition under which the output tile is stored. -/
abbrev cond1_1 (i : grid1.Coords) : Prop := k1_cond2 i = 1#1
/-- It holds exactly at the points whose position is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Unless the key-tile coordinate is 7 the output window is idle (nothing is stored into it) and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- When it is 7 the output window is live. -/
theorem liveAt1_5 : ∀ t : Fin cfg1.N, cond1_1 (grid1.coords t) → cfg1.idle 5 (grid1.coords t) = false := by decide +kernel

/-! ## The memrefs the body is called with -/

/-- One staging buffer of the output window, through which its contents are stated (the choice does not matter). -/
abbrev VO1_5 : View sig .tc .vmem S1024x512 .f32 := (Memref.whole cc1_stg5_0 : Memref sig .tc .vmem S1024x512 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .f32 := win1_5.stage (cfg1.slots t 5)
abbrev hs1_5 (t : Fin cfg1.N) : (ms1_5 t).IsWhole := hstage1_5 ((cfg1.slots t 5).cast nbuf1_5)
/-- The two accumulators: whole scoped buffers of the kernel's own, passed beside the windows. -/
abbrev scM1_0 : Memref sig .tc .vmem S1024x1 .f32 := Memref.whole cc1_scratch0
abbrev scM1_1 : Memref sig .tc .vmem S1024x512 .f32 := Memref.whole cc1_scratch1
abbrev VS1_0 : View sig .tc .vmem S1024x1 .f32 := scM1_0.view
abbrev VS1_1 : View sig .tc .vmem S1024x512 .f32 := scM1_1.view

end Cert.Kernel.Hand

end
-- ==== Proof.Region1RunAK.lean ====
/-
  The second kernel's body run once in the case where the key-tile coordinate is 0: the accumulators are zeroed first, then this tile is added; nothing is stored into the output tile.
  The statement: on whole staging buffers holding the five input blocks, the body runs to the end
  leaving the inputs as they were and each buffer it stores into holding a list of written pieces;
  the lists are found by running the body symbolically.
-/
import proofs.«146084_j48653389529424_2_alg».proof.Proof.Region1RunsK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the body's stores leave in the output tile's buffer (`L5`) and in the two accumulators
    (`LS0`: total weights, `LS1`: weighted sums), last store first, with the proof that the body runs to
    the continuation holding them. -/
noncomputable def kernelRun1_A (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) :
    Σ' (L5 : List (View.Piece (Elt F) S1024x512 .f32)), Σ' (LS0 : List (View.Piece (Elt F) S1024x1 .f32)), { LS1 : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.Region1RunBK.lean ====
/-
  The second kernel's body run once in the case where the key-tile coordinate is strictly between 0 and 7: this tile is added to the accumulators the point before left; nothing is stored into the output tile.
  The statement: on whole staging buffers holding the five input blocks, the body runs to the end
  leaving the inputs as they were and each buffer it stores into holding a list of written pieces;
  the lists are found by running the body symbolically.
-/
import proofs.«146084_j48653389529424_2_alg».proof.Proof.Region1RunAK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the body's stores leave in the output tile's buffer (`L5`) and in the two accumulators
    (`LS0`: total weights, `LS1`: weighted sums), last store first, with the proof that the body runs to
    the continuation holding them. -/
noncomputable def kernelRun1_B (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) :
    Σ' (L5 : List (View.Piece (Elt F) S1024x512 .f32)), Σ' (LS0 : List (View.Piece (Elt F) S1024x1 .f32)), { LS1 : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.Region1RunCK.lean ====
/-
  The second kernel's body run once in the case where the key-tile coordinate is 7: this tile is added to the accumulators the point before left, then the weighted sum is divided by the total weight, the bias row is added, and the result is stored into the output tile.
  The statement: on whole staging buffers holding the five input blocks, the body runs to the end
  leaving the inputs as they were and each buffer it stores into holding a list of written pieces;
  the lists are found by running the body symbolically.
-/
import proofs.«146084_j48653389529424_2_alg».proof.Proof.Region1RunBK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the body's stores leave in the output tile's buffer (`L5`) and in the two accumulators
    (`LS0`: total weights, `LS1`: weighted sums), last store first, with the proof that the body runs to
    the continuation holding them. -/
noncomputable def kernelRun1_C (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) :
    Σ' (L5 : List (View.Piece (Elt F) S1024x512 .f32)), Σ' (LS0 : List (View.Piece (Elt F) S1024x1 .f32)), { LS1 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.Kernel.Hand

end
-- ==== Proof.Region1K.lean ====
/-
  The second kernel, point by point: what each control case leaves in the output tile's buffer and
  in the two accumulators; the accumulation over the grid as a recursion on the point; the invariant
  between points (the two accumulators at what the point before left); and the proof data.
-/
import proofs.«146084_j48653389529424_2_alg».proof.Proof.Region1RunCK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves -/

/-- What this case leaves in the output tile's buffer: its pieces read back (none: a placeholder nothing consults, the window being idle and not written back at these points). -/
def out1_A_5 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) : Vec F S1024x512 .f32 :=
  VO1_5.read (Elt F) (VO1_5.writes (Elt F) VO1_5.junk (kernelRun1_A c i arg2 harg2 arg3 harg3 arg4 harg4 arg5 harg5 arg6 harg6 arg7 harg7 arg8 harg8 arg9 harg9 hc0 hc1 x0 x1 x2 x3 x4).1)

/-- The stores into the total-weight accumulator cover it. -/
theorem scover1_A_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4).2.1 S1024x1.size (by sl_kernel_rfl) y

/-- What this case leaves in the total-weight accumulator. -/
def sout1_A_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4).2.1)

/-- The stores into the weighted-sum accumulator cover it. -/
theorem scover1_A_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) (y : S1024x512.Idx) :
    ∃ pc ∈ (kernelRun1_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4).2.2.1 S1024x512.size (by sl_kernel_rfl) y

/-- What this case leaves in the weighted-sum accumulator. -/
def sout1_A_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) : Vec F S1024x512 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3 x4).2.2.1)

/-- What this case leaves in the output tile's buffer: its pieces read back (none: a placeholder nothing consults, the window being idle and not written back at these points). -/
def out1_B_5 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) : Vec F S1024x512 .f32 :=
  VO1_5.read (Elt F) (VO1_5.writes (Elt F) VO1_5.junk (kernelRun1_B c i arg2 harg2 arg3 harg3 arg4 harg4 arg5 harg5 arg6 harg6 arg7 harg7 arg8 harg8 arg9 harg9 hc0 hc1 x0 x1 x2 x3 x4 xs0 xs1).1)

/-- The stores into the total-weight accumulator cover it. -/
theorem scover1_B_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 xs0 xs1).2.1 S1024x1.size (by sl_kernel_rfl) y

/-- What this case leaves in the total-weight accumulator. -/
def sout1_B_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 xs0 xs1).2.1)

/-- The stores into the weighted-sum accumulator cover it. -/
theorem scover1_B_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) (y : S1024x512.Idx) :
    ∃ pc ∈ (kernelRun1_B c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 xs0 xs1).2.2.1 S1024x512.size (by sl_kernel_rfl) y

/-- What this case leaves in the weighted-sum accumulator. -/
def sout1_B_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) : Vec F S1024x512 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 x4 xs0 xs1).2.2.1)

/-- In the storing case the one store into the output tile covers it. -/
theorem cover1_C_5 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) (y : S1024x512.Idx) :
    ∃ pc ∈ (kernelRun1_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0 xs1).1 S1024x512.size (by sl_kernel_rfl) y

/-- What this case leaves in the output tile's buffer: its pieces read back. -/
def out1_C_5 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) : Vec F S1024x512 .f32 :=
  VO1_5.read (Elt F) (VO1_5.writes (Elt F) VO1_5.junk (kernelRun1_C c i arg2 harg2 arg3 harg3 arg4 harg4 arg5 harg5 arg6 harg6 arg7 harg7 arg8 harg8 arg9 harg9 hc0 hc1 x0 x1 x2 x3 x4 xs0 xs1).1)

/-- The stores into the total-weight accumulator cover it. -/
theorem scover1_C_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0 xs1).2.1 S1024x1.size (by sl_kernel_rfl) y

/-- What this case leaves in the total-weight accumulator. -/
def sout1_C_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 xs0 xs1).2.1)

/-- The stores into the weighted-sum accumulator cover it. -/
theorem scover1_C_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) (y : S1024x512.Idx) :
    ∃ pc ∈ (kernelRun1_C c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0 xs1).2.2.1 S1024x512.size (by sl_kernel_rfl) y

/-- What this case leaves in the weighted-sum accumulator. -/
def sout1_C_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) : Vec F S1024x512 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 x4 xs0 xs1).2.2.1)

/-! ## The accumulation over the grid -/

/-- What the output tile's buffer and the two accumulators hold after the body at position `n`
    (in that order): the case the position selects, run on the point's input blocks, the
    accumulators taken from position `n - 1` when the key-tile coordinate is not 0. -/
def outsAt1 (c : Dev nD) : (n : ℕ) → n < cfg1.N → Vec F S1024x512 .f32 × Vec F S1024x1 .f32 × Vec F S1024x512 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)

/-- At a point whose key-tile coordinate is 0. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- At a point whose key-tile coordinate is strictly between 0 and 7. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point whose key-tile coordinate is 7. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The class's invariant (every scoped buffer that is no staging buffer of this kernel at some
    contents, and the generator register at some state), buffer by buffer, the two accumulators as
    memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- Before position `n`: at the first point the class's invariant; afterwards the same with the two
    accumulators at what the point before left in them. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The proof data -/

/-- The arrays as the region finds them; after the body each input's buffer at its block and the
    output tile's at `outsAt1`'s first component; the invariant `PhiS1`; nothing owed. The two windows
    that read the scaled rows (as queries and as keys) share one array and hold half of it each. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Cert.Kernel.Hand

end
-- ==== Proof.Region1BodyK.lean ====
/-
  The second kernel's body obligation: at every point, from the invariant, the inputs' buffers at
  their blocks and the output tile's buffer, the body runs and gives back the invariant at the next
  point and every buffer at what the proof data say; by the three control cases.
-/
import proofs.«146084_j48653389529424_2_alg».proof.Proof.Region1K

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' buffers hold their blocks; the position says which case the
    point is in; the invariant hands the body the accumulators at what the point before left (at
    anything at the first point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · by_cases h1 : t.val % 8 = 7
    · exfalso; omega
    · rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        iintro ⟨⟨⟨Ho1, Ho2, Ho3, Ho4, Ho5, Ho6, Ho7, HS0, HS1⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [Ho1 Ho2 Ho3 Ho4 Ho5 Ho6 Ho7 HS0 HS1 Hg]
        · isplitl [Ho1 Ho2 Ho3 Ho4 Ho5 Ho6 Ho7 HS0 HS1]
          · isplitl [Ho1]; · iexact Ho1
            isplitl [Ho2]; · iexact Ho2
            isplitl [Ho3]; · iexact Ho3
            isplitl [Ho4]; · iexact Ho4
            isplitl [Ho5]; · iexact Ho5
            isplitl [Ho6]; · iexact Ho6
            isplitl [Ho7]; · iexact Ho7
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨Ho1, Ho2, Ho3, Ho4, Ho5, Ho6, Ho7, HS0, HS1⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [Ho1 Ho2 Ho3 Ho4 Ho5 Ho6 Ho7 HS0 HS1 Hg]
        · isplitl [Ho1 Ho2 Ho3 Ho4 Ho5 Ho6 Ho7 HS0 HS1]
          · isplitl [Ho1]; · iexact Ho1
            isplitl [Ho2]; · iexact Ho2
            isplitl [Ho3]; · iexact Ho3
            isplitl [Ho4]; · iexact Ho4
            isplitl [Ho5]; · iexact Ho5
            isplitl [Ho6]; · iexact Ho6
            isplitl [Ho7]; · iexact Ho7
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 8 = 7
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0 sout1_C_1; (try dsimp only)
      rw [PhiS1_castSucc V c t, PhiS1_pos V c _ _ hz]
      iintro ⟨⟨⟨Ho1, Ho2, Ho3, Ho4, Ho5, Ho6, Ho7, HS0, HS1⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [Ho1 Ho2 Ho3 Ho4 Ho5 Ho6 Ho7 HS0 HS1 Hg]
      · isplitl [Ho1 Ho2 Ho3 Ho4 Ho5 Ho6 Ho7 HS0 HS1]
        · isplitl [Ho1]; · iexact Ho1
          isplitl [Ho2]; · iexact Ho2
          isplitl [Ho3]; · iexact Ho3
          isplitl [Ho4]; · iexact Ho4
          isplitl [Ho5]; · iexact Ho5
          isplitl [Ho6]; · iexact Ho6
          isplitl [Ho7]; · iexact Ho7
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0 sout1_B_1; (try dsimp only)
      rw [PhiS1_castSucc V c t, PhiS1_pos V c _ _ hz]
      iintro ⟨⟨⟨Ho1, Ho2, Ho3, Ho4, Ho5, Ho6, Ho7, HS0, HS1⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [Ho1 Ho2 Ho3 Ho4 Ho5 Ho6 Ho7 HS0 HS1 Hg]
      · isplitl [Ho1 Ho2 Ho3 Ho4 Ho5 Ho6 Ho7 HS0 HS1]
        · isplitl [Ho1]; · iexact Ho1
          isplitl [Ho2]; · iexact Ho2
          isplitl [Ho3]; · iexact Ho3
          isplitl [Ho4]; · iexact Ho4
          isplitl [Ho5]; · iexact Ho5
          isplitl [Ho6]; · iexact Ho6
          isplitl [Ho7]; · iexact Ho7
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulators' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨Ho1, Ho2, Ho3, Ho4, Ho5, Ho6, Ho7, HS0, HS1⟩, Hg⟩
  isplitl [Ho1 Ho2 Ho3 Ho4 Ho5 Ho6 Ho7 HS0 HS1]
  · isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [HS0]; · iexists _; iexact HS0
    iexists _; iexact HS1
  iexact Hg

end Cert.Kernel.Hand

end
-- ==== Proof.Region1ArraysK.lean ====
/-
  The second kernel's arrays among the main program's buffers. Two of its windows (the query rows
  and the key rows) read ONE array, the rows scaled to unit length; each window holds half of it.
  At the region's entry the buffers split into the six windows' arrays and the rest; at its exit
  they are put back, the two halves joined, the result array at what the write-backs left.
-/
import proofs.«146084_j48653389529424_2_alg».proof.Proof.Region1K

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The shares the windows hold their arrays at: the two readers of the shared array a half each. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl
theorem share1_4 (c : Dev nD) : (dat1 V c).share 4 = fullShare := rfl
theorem share1_5 (c : Dev nD) : (dat1 V c).share 5 = fullShare := rfl

/-- The five distinct buffers behind the six windows, listed. -/
theorem arrBufs1_eq (c : Dev nD) (Vr : (b : Ref sig .tc) → Buf (Elt F) ((c : Thread nD τ).loc b)) :
    (Pipeline.arrBufs spec1 c Vr : sProp 𝕄)
      = iprop((((c : Thread nD τ).loc main_v0_1) ↦{fullShare} Vr main_v0_1) ∗ (((c : Thread nD τ).loc main_v0_0) ↦{fullShare} Vr main_v0_0) ∗ (((c : Thread nD τ).loc main_arg1) ↦{fullShare} Vr main_arg1) ∗ (((c : Thread nD τ).loc main_v1) ↦{fullShare} Vr main_v1) ∗ (((c : Thread nD τ).loc main_v2) ↦{fullShare} Vr main_v2)) := by
  unfold Pipeline.arrBufs
  rw [BI.bigSep_eq_bigSepL_of_eq [main_v0_1, main_v0_0, main_arg1, main_v1, main_v2] (by decide) (by decide)]; rfl

/-- The six windows' arrays, listed, each whole at its share. -/
theorem arrays1_eq (c : Dev nD) (Fv : (w : Fin cfg1.W) → Buf (Elt F) ((cfg1.win w).arr.view.loc (c.tc : Thread nD τ))) :
    ((dat1 V c).arrays Fv : sProp 𝕄)
      = iprop((((c : Thread nD τ).loc main_v0_1) ↦{fullShare.left} Fv 0) ∗ (((c : Thread nD τ).loc main_v0_1) ↦{fullShare.right} Fv 1) ∗ (((c : Thread nD τ).loc main_v0_0) ↦{fullShare} Fv 2) ∗ (((c : Thread nD τ).loc main_arg1) ↦{fullShare} Fv 3) ∗ (((c : Thread nD τ).loc main_v1) ↦{fullShare} Fv 4) ∗ (((c : Thread nD τ).loc main_v2) ↦{fullShare} Fv 5)) := by
  unfold Dat.arrays
  rw [bigSep_W1, (arr_whole1 0).set_eq_univ, (arr_whole1 2).set_eq_univ, (arr_whole1 3).set_eq_univ, (arr_whole1 4).set_eq_univ, (arr_whole1 5).set_eq_univ,
    share1_0, share1_1, share1_2, share1_3, share1_4, share1_5]

/-- ENTRY: the unscoped buffers at the entry contents are the kernel's arrays at those contents and the rest. -/
theorem arrays1_of_unscopedBufs (c : Dev nD) :
    (unscopedBufs c (V c) : sProp 𝕄) ⊢ iprop((dat1 V c).arrays (dat1 V c).A ∗ Pipeline.unscopedRest spec1 c (V c)) := by
  rw [Pipeline.unscopedBufs_split₀ cfgs 1 (by decide) c (V c)]
  show iprop((Pipeline.arrBufs spec1 c (V c) : sProp 𝕄) ∗ Pipeline.unscopedRest spec1 c (V c)) ⊢ _
  rw [arrays1_eq, arrBufs1_eq]
  refine sep_mono ?_ .rfl
  iintro ⟨Hu, Hh, Ha, Hb, Ho⟩
  ihave Hs := (pointsTo_share (PosShare.mem_left_op_right fullShare)).1 $$ Hu
  icases Hs with ⟨Hl, Hr⟩
  isplitl [Hl]; · iexact Hl
  isplitl [Hr]; · iexact Hr
  isplitl [Hh]; · iexact Hh
  isplitl [Ha]; · iexact Ha
  isplitl [Hb]; · iexact Hb
  iexact Ho

/-- EXIT: the arrays at their final contents (the inputs as entered, the result at what the write-backs left)
    and the rest are the unscoped buffers at any contents that have the result there and agree elsewhere. -/
theorem unscopedBufs_of_arrays1 (c : Dev nD) (V' : (b : Ref sig .tc) → Buf (Elt F) ((c : Thread nD τ).loc b))
    (hres : V' main_v2 = (dat1 V c).arrAt 5 cfg1.N) (hrest : ∀ b, b ≠ main_v2 → V' b = V c b) :
    iprop((dat1 V c).arrays ((dat1 V c).arrAt · cfg1.N) ∗ Pipeline.unscopedRest spec1 c (V c)) ⊢ (unscopedBufs c V' : sProp 𝕄) := by
  rw [Pipeline.unscopedBufs_split₀ cfgs 1 (by decide) c V']
  show _ ⊢ iprop((Pipeline.arrBufs spec1 c V' : sProp 𝕄) ∗ Pipeline.unscopedRest spec1 c V')
  rw [arrays1_eq, arrBufs1_eq]
  refine sep_mono ?_ (Entails.of_eq ?_)
  · rw [(dat1 V c).arrAt_in 0 rfl _, (dat1 V c).arrAt_in 1 rfl _, (dat1 V c).arrAt_in 2 rfl _, (dat1 V c).arrAt_in 3 rfl _, (dat1 V c).arrAt_in 4 rfl _,
      hres, hrest main_v0_1 (by decide), hrest main_v0_0 (by decide), hrest main_arg1 (by decide), hrest main_v1 (by decide)]
    iintro ⟨Hl, Hr, Hh, Ha, Hb, Ho⟩
    isplitl [Hl Hr]
    · iapply (pointsTo_share (PosShare.mem_left_op_right fullShare)).2
      isplitl [Hl]; · iexact Hl
      iexact Hr
    isplitl [Hh]; · iexact Hh
    isplitl [Ha]; · iexact Ha
    isplitl [Hb]; · iexact Hb
    iexact Ho
  · unfold Pipeline.unscopedRest
    refine bigSep_congr fun b hb => ?_
    rw [hrest b (fun e => (Finset.mem_sdiff.mp hb).2 (Finset.mem_image.mpr ⟨5, Finset.mem_univ _, e ▸ rfl⟩))]

end Cert.Kernel.Hand

end
-- ==== Proof.RunK.lean ====
/-
  The whole program as a list of segments: the first kernel's region, the host reshape of the bias
  to a row, the second kernel's region. Between segments every buffer of the main program is held
  at named contents: the launch contents; then the first kernel's two results at what its
  write-backs leave; then the reshaped bias; then the second kernel's result at what its
  write-backs leave. Every weakly fair execution terminates, and at the end every such buffer
  holds those last contents.
-/
import proofs.«146084_j48653389529424_2_alg».proof.Proof.Region0K
import proofs.«146084_j48653389529424_2_alg».proof.Proof.Region1BodyK
import proofs.«146084_j48653389529424_2_alg».proof.Proof.Region1ArraysK
import proofs.«146084_j48653389529424_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
abbrev Vin0 : (c : Dev nD) → (b : Ref sig .tc) → Buf (Elt F) ((c : Thread nD τ).loc b) := fun c b => W0 m ρ c b
/-- After the first kernel: its arrays at what its write-backs leave, every other buffer as before. -/
def W1 (c : Dev nD) : Valuation τ sig (Elt F) :=
  Pipeline.withArrays spec0 c (W0 m ρ c) fun w => (dat0 (Vin0 m ρ) c).arrAt w cfg0.N
theorem W1_arr (c : Dev nD) (w : Fin cfg0.W) :
    W1 m ρ c (Proc.devRef .tc (Pipeline.arrRef spec0 w)) = (dat0 (Vin0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vout0 : (c : Dev nD) → (b : Ref sig .tc) → Buf (Elt F) ((c : Thread nD τ).loc b) := fun c b => W1 m ρ c b
theorem hF0 (c : Dev nD) (w : Fin cfg0.W) : (dat0 (Vin0 m ρ) c).arrAt w cfg0.N = Vout0 m ρ c (Pipeline.arrRef spec0 w) :=
  (W1_arr m ρ c w).symm
theorem hrest0 (c : Dev nD) : ∀ b, b ∉ Finset.univ.image (Pipeline.arrRef spec0) → Vout0 m ρ c b = Vin0 m ρ c b :=
  fun b hb => W1_of_ne m ρ c b fun w e => hb (Finset.mem_image.mpr ⟨w, Finset.mem_univ _, e⟩)
/-- After the host reshape of the bias. -/
def W2 (c : Dev nD) : Valuation τ sig (Elt F) := StableHlo.after hostOps1 (W1 m ρ c)
abbrev Vin1 : (c : Dev nD) → (b : Ref sig .tc) → Buf (Elt F) ((c : Thread nD τ).loc b) := fun c b => W2 m ρ c b
/-- What the second kernel leaves in its result array. -/
def res1 (c : Dev nD) : Buf (Elt F) ((c : Thread nD τ).loc main_v2) := (dat1 (Vin1 m ρ) c).arrAt 5 cfg1.N
/-- After the second kernel: its result array at that, every other buffer as before (its other arrays are inputs). -/
def W3 (c : Dev nD) : Valuation τ sig (Elt F) := Function.update (W2 m ρ c) main_v2 (res1 m ρ c)
abbrev Vout1 : (c : Dev nD) → (b : Ref sig .tc) → Buf (Elt F) ((c : Thread nD τ).loc b) := fun c b => W3 m ρ c b
theorem W3_res (c : Dev nD) : W3 m ρ c (Proc.devRef .tc main_v2) = res1 m ρ c := by
  unfold W3; exact Function.update_self ..
theorem W3_of_ne (c : Dev nD) (b : Ref sig .tc) (hb : b ≠ main_v2) : W3 m ρ c (Proc.devRef .tc b) = W2 m ρ c (Proc.devRef .tc b) := by
  unfold W3; exact Function.update_of_ne (StableHlo.devRef_ne_of_ne hb) ..

/-! ## The proof data family and the thread state -/

/-- Each pipeline's proof data at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (Vin0 m ρ) c
  | ⟨1, _⟩ => fun c => dat1 (Vin1 m ρ) c
abbrev 𝒱h : Variants := Variants.none
abbrev Lh : GSem nD τ sig → Finset Unit := fun _ => ∅
abbrev lvh : GSem nD τ sig → Unit → ℕ := fun _ _ => 0
/-- What rides beside the buffers through every segment: the generator register at some state and the core owing nothing. -/
abbrev Rside (c : Dev nD) : sProp 𝕄 := iprop((∃ r, prngReg c r) ∗ ∃ W, owes (c : Thread nD τ) (0 : CellTallies nD τ sig Unit) W)
/-- The host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's debts: every unscoped buffer at the last contents, the generator register at some state. -/
abbrev Tlast (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first kernel's region: its arrays split out of the unscoped buffers and put back at the exit contents. -/
def reg0 : Pipeline.RegionSeg (pcfgs (F := F)) adm (pdats m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ Lh lvh 0 fun _ _ => rfl
  pre c := iprop(StableHlo.held (c : Thread nD τ) (Pipeline.ucRefs τ sig) (W0 m ρ c) ∗ Rside c)
  post c := iprop(StableHlo.held (c : Thread nD τ) (Pipeline.ucRefs τ sig) (W1 m ρ c) ∗ Rside c)
  X c := iprop(∃ r, prngReg c r)
  Y c := iprop(∃ r, prngReg c r)
  Z c := Pipeline.unscopedRest (Ix := Unit) (Name := ℕ) (U := Pipeline.UD sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region. -/
def reg1 : Pipeline.RegionSeg (pcfgs (F := F)) adm (pdats m ρ) () defs₀ 𝒱h Lh lvh 1 where
  win := winFacts₀1
  block_pos := block_pos1
  stage_whole := stage_whole1
  K := PEmpty
  osem k := k.elim
  ho := Pipeline.OwnSemFacts.none _
  hbody c := (body_obligation1 (Vin1 m ρ) c).loose
  hwaits := Pipeline.hwaits_of_owed_zero _ _ _ _ Lh lvh 1 fun _ _ => rfl
  pre c := iprop(StableHlo.held (c : Thread nD τ) (Pipeline.ucRefs τ sig) (W2 m ρ c) ∗ Rside c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (Vin1 m ρ c)
  hentry c := by
    rw [Pipeline.ownSems0_none]
    have hsplit : (unscopedBufs c (Vin1 m ρ c) : sProp 𝕄)
        ⊢ iprop((pdats m ρ 1 c).arrays ((pdats m ρ 1 c).arrAt · 0) ∗ Pipeline.unscopedRest spec1 c (Vin1 m ρ c)) :=
      arrays1_of_unscopedBufs (Vin1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (Vin1 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · (Pipeline.pin (pcfgs (F := F)) adm 1).N) ∗ Pipeline.unscopedRest spec1 c (Vin1 m ρ c))
        ⊢ (unscopedBufs c (Vout1 m ρ c) : sProp 𝕄) :=
      unscopedBufs_of_arrays1 (Vin1 m ρ) c (Vout1 m ρ c) (W3_res m ρ c) (fun b hb => W3_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱h Lh lvh) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing
    faulting, and every final state holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj embL defs₀ 𝒱h Lh lvh m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rside c)) (Tₙ := Tlast m ρ)
    (hch := ⟨fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.Kernel.Hand

end
-- ==== Proof.RunReadsK.lean ====
/-
  Reading the last boundary's contents back: no host operation and no kernel writes an argument
  array (a kernel reads one through an input window or passes it by), so each argument holds at the
  end what it held at launch. Hence the frame: every weakly fair execution terminates and leaves
  the four arguments unchanged.
-/
import proofs.«146084_j48653389529424_2_alg».proof.Proof.RunK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The host reshape writes only the bias row. -/
theorem W2_of (c : Dev nD) (r : Ref sig .tc) (h : r ∉ hostOps1_W) : W2 m ρ c (Proc.devRef .tc r) = W1 m ρ c (Proc.devRef .tc r) := by
  unfold W2; exact StableHlo.after_of_writes_sub hostOps1 _ hostOps1_writes h

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := (W1_arr m ρ c 0).trans (((dat0 (Vin0 m ρ) c).arrAt_in 0 rfl _).trans (A_eq0 (Vin0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := W1_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := (W1_arr m ρ c 1).trans (((dat0 (Vin0 m ρ) c).arrAt_in 1 rfl _).trans (A_eq0 (Vin0 m ρ) c 1))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := W1_of_ne m ρ c main_arg3 (by decide)
    _ = m ((c : Thread nD τ).loc main_arg3) := rfl

/-- The run, read at the result and the four arguments: the result array ends at what the second kernel's
    write-backs leave, the arguments as launched. -/
theorem run_read : θ_run defs (onTc (τ := τ) (main (F := F))) ⟨m, fun _ => 0, ρ⟩ (fun r => ∀ c : Dev nD,
      r.2.mem ((c.tc : Thread nD τ).loc main_v2) = res1 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (W3_res m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_read m ρ)

end Cert.Kernel.Hand

end
-- ==== Proof.Spec.lean ====
/-
  The function both programs compute, stated once, index by index, on the extended reals.

  For inputs x : [8192, 512], adj : [8192, 8192], w : [512, 512], b : [512]:
    h   = x · w                                   (rows of projected features)
    n_r = max (sqrt (sum_j h_rj^2)) eps            (the clamped length of row r)
    u   = h / n                                    (rows scaled to unit length, up to the clamp)
    c_rs = sum_j u_rj u_sj                         (cosine similarity of rows r and s)
    p_rs = (adj_rs + eps) · exp c_rs               (the unnormalised attention weight)
    out_rj = (sum_s p_rs h_sj) / (sum_s p_rs) + b_j
  This is the weighted mean of the rows of h with weights p, plus the bias. A softmax over
  c_rs + log (adj_rs + eps) gives the same weights after normalisation whenever adj_rs + eps > 0,
  because exp (log a) = a for a > 0 and a common factor exp (-M) cancels between numerator and
  denominator.
-/
import Idealize.ShloMosaic.PureOps.Ideal
import Idealize.ShloMosaic.Lib.ValueIdx

noncomputable section

namespace Cert.Spec

open Idealize.ShloMosaic Idealize.ShloMosaic.ValueIdx

/-- The shapes of the four arguments. -/
abbrev SX : Shape := ⟨2, ![8192, 512]⟩
abbrev SA : Shape := ⟨2, ![8192, 8192]⟩
abbrev SW : Shape := ⟨2, ![512, 512]⟩
abbrev SB : Shape := ⟨1, ![512]⟩

/-- The small positive constant both programs carry twice: added to the adjacency entry and used
    as the lower clamp of a row's length (the single-precision value nearest 1e-8, read exactly). -/
def eps : EReal := Ideal.ofBits .f32 0x322BCC77#32

variable (x : SX.Idx → EReal) (a : SA.Idx → EReal) (w : SW.Idx → EReal) (b : SB.Idx → EReal)

/-- Entry (r, j) of the projection x · w. -/
def proj (r : Fin 8192) (j : Fin 512) : EReal := ∑ k : Fin 512, x (ix2 r k) * w (ix2 k j)

/-- The clamped Euclidean length of row r of the projection. -/
def len (r : Fin 8192) : EReal := max (Ideal.sqrt (∑ j : Fin 512, proj x w r j * proj x w r j)) eps

/-- Entry (r, j) of the projection with every row divided by its clamped length. -/
def unit (r : Fin 8192) (j : Fin 512) : EReal := Ideal.div (proj x w r j) (len x w r)

/-- The inner product of the scaled rows r and s. -/
def cosim (r s : Fin 8192) : EReal := ∑ j : Fin 512, unit x w r j * unit x w s j

/-- The unnormalised weight of row s in the mean taken for row r. -/
def wgt (r s : Fin 8192) : EReal := (a (ix2 r s) + eps) * Ideal.exp (cosim x w r s)

/-- The total weight of row r. -/
def den (r : Fin 8192) : EReal := ∑ s : Fin 8192, wgt x a w r s

/-- The weighted sum of column j of the projection, for row r. -/
def num (r : Fin 8192) (j : Fin 512) : EReal := ∑ s : Fin 8192, wgt x a w r s * proj x w s j

/-- The result: the weighted mean of the projected rows, plus the bias. -/
def out : SX.Idx → EReal := fun i =>
  Ideal.div (num x a w (i 0) (i 1)) (den x a w (i 0)) + b (ix1 (i 1))

/-- What the precondition says of the four arguments, element by element: every entry is a real
    number, and every adjacency entry plus the small constant is positive (so its logarithm is a
    real number). -/
structure Dom : Prop where
  fin_x : ∀ i, ∃ r : ℝ, x i = (r : EReal)
  fin_a : ∀ i, ∃ r : ℝ, a i = (r : EReal)
  fin_w : ∀ i, ∃ r : ℝ, w i = (r : EReal)
  fin_b : ∀ i, ∃ r : ℝ, b i = (r : EReal)
  pos_a : ∀ i, 0 < a i + eps

end Cert.Spec

end
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.LibRowSums.lean ====
/-
  Row sums of a matrix and the layout operations around them, read at an index — general in the extents.

  A sum along axis 1 of an `[a, b]` matrix is, at row `r`, the sum over `k < b` of the entries `(r, k)`. A kernel takes
  it as a lane reduction (its accumulator the neutral zero, which the reading drops) and casts the `[a]` result to an
  `[a, 1]` column; a host program takes it as a reduce from an initial value and lays the result out as a column by a
  broadcast along axis 0. Beside them, the host's broadcasts of a vector to a one-row matrix and of a column across the
  columns, each read at an index with both indices written out by coordinates.
-/
import Idealize.ShloMosaic.Lib.ValueLayout
import Idealize.ShloMosaic.Lib.IdealHost
import Idealize.ShloMosaic.PureOps.Ideal.Laws
import proofs.«146084_j48653389529424_2_alg».proof.Proof.LibColumns

open scoped BigOperators

namespace Cert.LibRowSums

open Idealize.ShloMosaic Idealize.ShloMosaic.ValueIdx

section Layout
variable {α : Type}

/-- An `[a]` vector broadcast along axis 0 to an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A `[b]` vector broadcast along axis 1 to a `[1, b]` row reads, at `(u, k)`, the vector at `k`. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- An `[a, 1]` column broadcast across `b` columns reads, at `(p, c)`, the column's entry at `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    exact (if_pos rfl).symm

end Layout

/-- The source index a sum along axis 1 inserts over row `r` at coordinate `k` is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A KERNEL'S ROW SUM kept as a column: the lane reduction along axis 1 of an `[a, b]` matrix, cast from `[a]` to
    `[a, 1]`, reads at `(r, u)` the sum over `k < b` of the entries `(r, k)`. -/
theorem laneSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ src acc h hφ hacc) hc (ix2 r u)
      = ∑ k : Fin b, src (ix2 r k) := by
  rw [Cert.LibColumns.shapeCast_a_a1_apply]
  refine (Ideal.multiReduction_add_single src acc h hφ hacc (ix1 r)).trans ?_
  show (∑ k : Fin b, src (h.lift (ix1 r) k)) = _
  exact Finset.sum_congr rfl fun k _ => congrArg src (lift_row h r k)

/-- A HOST PROGRAM'S ROW SUM laid out as a column: the reduce with `add` along axis 1 from an initial value, broadcast
    along axis 0 to `[a, 1]`, reads at `(r, v)` the initial value plus the sum over `k < b` of the entries `(r, k)`. -/
theorem hostRowSum_apply {φ : FTy} {a b : ℕ} {u : Shape} (src : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩)
    (hb : (⟨1, ![a]⟩ : Shape).BroadcastsInDim ⟨2, ![a, 1]⟩ ![0]) (r : Fin a) (v : Fin 1) :
    broadcastInDim ⟨2, ![a, 1]⟩ ![0] hb (Host.reduceAdd (F := Ideal) src init h' hu) (ix2 r v)
      = init (Shape.Idx.first hu) + ∑ k : Fin b, src (ix2 r k) := by
  rw [broadcastInDim_a_a1_apply, hostReduceAdd_apply, Ideal.hostReduceAdd_single h' h]
  show _ + (∑ k : Fin b, src (h.lift (ix1 r) k)) = _
  exact congrArg _ (Finset.sum_congr rfl fun k _ => congrArg src (lift_row h r k))

end Cert.LibRowSums
-- ==== Proof.LibMatmul.lean ====
/-
  A matrix product read at one entry, over the extended reals.

  A product of an [A, K] matrix by a [K, B] matrix whose dimension numbers contract the left operand's second axis
  with the right operand's first, accumulated into the zero matrix, has at entry (r, j) the value
  Σ_k lhs[r, k] · rhs[k, j]: exact arithmetic leaves neither rounding nor a chunk order in it.
-/
import Idealize.ShloMosaic.PureOps.Ideal.Laws
import Idealize.ShloMosaic.Lib.ValueIdx

noncomputable section

namespace Cert.LibMatmul

open Idealize.ShloMosaic Idealize.ShloMosaic.ValueIdx

/-- Entry (r, j) of a plain matrix product into a zero accumulator is the sum over the contracted axis. -/
theorem plain_matmul_zero_apply {A K B : Nat} {φ₁ φ₂ : FTy} (prec : Option ContractPrecision)
    (lhs : FVec Ideal ⟨2, ![A, K]⟩ φ₁) (rhs : FVec Ideal ⟨2, ![K, B]⟩ φ₂) (r : Fin A) (j : Fin B) :
    FloatOps.matmul (DotDims.plain A K B) prec lhs rhs (constant (F := Ideal) ⟨2, ![A, B]⟩ .f32 0x00000000#32) (ix2 r j)
      = ∑ k : Fin K, lhs (ix2 r k) * rhs (ix2 k j) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibMatmul

end
-- ==== Proof.Region0Value.lean ====
/- What region 0 leaves in its two output arrays, read index by index over the extended reals.

   At each of the 8 grid points the body holds a block of 1024 rows of the input x and the whole weight matrix w. Its
   first output block is the matrix product of the two (over the extended reals the two roundings to bf16 are the
   identity), entry (p, q) being the sum over k < 512 of x[p, k] * w[k, q]. Its second output block divides every entry
   of the product by the length of its row, the square root of the row's sum of squares, clamped below by a small
   positive constant. Point t works on rows 1024 t .. 1024 t + 1023, the 8 blocks tile the 8192 rows, so after the
   last write-back each output array is one function of x and w: the projection, and the projection with every row
   scaled by its clamped length. -/
import proofs.«146084_j48653389529424_2_alg».proof.Proof.Region0
import proofs.«146084_j48653389529424_2_alg».proof.Proof.Spec
import proofs.«146084_j48653389529424_2_alg».proof.Proof.LibRowSums
import proofs.«146084_j48653389529424_2_alg».proof.Proof.LibMatmul
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The body's payloads at an index -/

/-- The kernel's contraction contracts the left operand's second axis with the right operand's first: the plain
    product of a [1024, 512] matrix by a [512, 512] matrix. -/
theorem dot_eq_plain : dot_S1024x512_S512x512_S1024x512_1_0_0_1_n_n = DotDims.plain 1024 512 512 := rfl

/-- Entry (p, q) of the product block: the sum over the contracted axis; the roundings of the operands to bf16 are
    the identity over the extended reals and the accumulator is zero. -/
theorem first_pay1_apply (x0 : Vec Ideal S1024x512 .f32) (x1 : Vec Ideal S512x512 .f32) (p : Fin 1024) (q : Fin 512) :
    k0_pay1 x0 x1 (ix2 p q) = ∑ k : Fin 512, x0 (ix2 p k) * x1 (ix2 k q) := by
  unfold k0_pay1
  rw [dot_eq_plain]
  exact Cert.LibMatmul.plain_matmul_zero_apply none (truncf .bf16 x0 bitsLt_bf16_f32) (truncf .bf16 x1 bitsLt_bf16_f32) p q

/-- The first output block is the product block (the final rounding is the identity). -/
theorem first_pay2_apply (x0 : Vec Ideal S1024x512 .f32) (x1 : Vec Ideal S512x512 .f32) (p : Fin 1024) (q : Fin 512) :
    k0_pay2 x0 x1 (ix2 p q) = ∑ k : Fin 512, x0 (ix2 p k) * x1 (ix2 k q) :=
  first_pay1_apply x0 x1 p q

/-- Entry (p, q) of the second output block: the product's entry divided by the clamped length of the product's
    row p. -/
theorem first_pay3_apply (x0 : Vec Ideal S1024x512 .f32) (x1 : Vec Ideal S512x512 .f32) (p : Fin 1024) (q : Fin 512) :
    k0_pay3 x0 x1 (ix2 p q)
      = Ideal.div (k0_pay1 x0 x1 (ix2 p q))
          (max (Ideal.sqrt (∑ j : Fin 512, k0_pay1 x0 x1 (ix2 p j) * k0_pay1 x0 x1 (ix2 p j))) (Ideal.ofBits .f32 0x322BCC77#32)) := by
  unfold k0_pay3
  generalize k0_pay1 x0 x1 = h
  rw [truncf_apply, divf_apply, Cert.LibColumns.broadcastTo_a1_ab_apply, maximumf_apply]
  refine congrArg (fun z => Ideal.div (h (ix2 p q)) (max (Ideal.sqrt z) (Ideal.ofBits .f32 0x322BCC77#32))) ?_
  exact Cert.LibRowSums.laneSum_apply (mulf h h) _ _ _ _ _ p 0

/-- The product block's entry against the projection: when row p of the left block is row r of x and the right block
    is w, entry (p, q) of the product block is entry (r, q) of the projection. -/
theorem pay1_proj (x : Cert.Spec.SX.Idx → EReal) (w : Cert.Spec.SW.Idx → EReal)
    (x0 : Vec Ideal S1024x512 .f32) (x1 : Vec Ideal S512x512 .f32) (p : Fin 1024) (r : Fin 8192)
    (h0 : ∀ k : Fin 512, x0 (ix2 p k) = x (ix2 r k)) (h1 : ∀ k q : Fin 512, x1 (ix2 k q) = w (ix2 k q)) (q : Fin 512) :
    k0_pay1 x0 x1 (ix2 p q) = Cert.Spec.proj x w r q := by
  rw [first_pay1_apply]
  unfold Cert.Spec.proj
  exact Finset.sum_congr rfl fun k _ => by rw [h0, h1]

/-- The same for the first output block, -/
theorem pay2_proj (x : Cert.Spec.SX.Idx → EReal) (w : Cert.Spec.SW.Idx → EReal)
    (x0 : Vec Ideal S1024x512 .f32) (x1 : Vec Ideal S512x512 .f32) (p : Fin 1024) (r : Fin 8192)
    (h0 : ∀ k : Fin 512, x0 (ix2 p k) = x (ix2 r k)) (h1 : ∀ k q : Fin 512, x1 (ix2 k q) = w (ix2 k q)) (q : Fin 512) :
    k0_pay2 x0 x1 (ix2 p q) = Cert.Spec.proj x w r q :=
  pay1_proj x w x0 x1 p r h0 h1 q

/-- and the second output block's entry is the projection's divided by the clamped length of its row. -/
theorem pay3_unit (x : Cert.Spec.SX.Idx → EReal) (w : Cert.Spec.SW.Idx → EReal)
    (x0 : Vec Ideal S1024x512 .f32) (x1 : Vec Ideal S512x512 .f32) (p : Fin 1024) (r : Fin 8192)
    (h0 : ∀ k : Fin 512, x0 (ix2 p k) = x (ix2 r k)) (h1 : ∀ k q : Fin 512, x1 (ix2 k q) = w (ix2 k q)) (q : Fin 512) :
    k0_pay3 x0 x1 (ix2 p q) = Cert.Spec.unit x w r q := by
  rw [first_pay3_apply]
  unfold Cert.Spec.unit Cert.Spec.len Cert.Spec.eps
  simp only [pay1_proj x w x0 x1 p r h0 h1]

/-! ## From blocks to the arrays -/

-- the buffer contents when the region is entered, over the extended reals
variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 8 grid points: the row windows (input rows and the two outputs) are at block
    row t and block column 0; the weight window is always at block (0, 0). -/
theorem idx_facts0 : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of the input block at point t is row 1024 t + p of x. -/
theorem iblk0_0_apply (c : Dev nD) (t : Fin cfg0.N) (p : Fin 1024) (r : Fin 8192) (hr : r.val = t.val * 1024 + p.val) (k : Fin 512) :
    iblk0 V c 0 t (ix2 p k) = V c main_arg0 (ix2 r k) := by
  obtain ⟨e0, e1, -⟩ := idx_facts0 t
  show V c main_arg0 (((cfg0.win 0).blk t).view.emb (ix2 p k)) = V c main_arg0 (ix2 r k)
  congr 1
  funext a; apply Fin.ext
  match a with
  | ⟨0, _⟩ => show win0_0.index t (0 : Fin 2) * 1024 + 1 * p.val = r.val; omega
  | ⟨1, _⟩ => show win0_0.index t (1 : Fin 2) * 512 + 1 * k.val = k.val; omega

/-- The weight block at every point is w. -/
theorem iblk0_1_apply (c : Dev nD) (t : Fin cfg0.N) (k q : Fin 512) :
    iblk0 V c 1 t (ix2 k q) = V c main_arg2 (ix2 k q) := by
  obtain ⟨-, -, e2, e3, -⟩ := idx_facts0 t
  show V c main_arg2 (((cfg0.win 1).blk t).view.emb (ix2 k q)) = V c main_arg2 (ix2 k q)
  congr 1
  funext a; apply Fin.ext
  match a with
  | ⟨0, _⟩ => show win0_1.index t (0 : Fin 2) * 512 + 1 * k.val = k.val; omega
  | ⟨1, _⟩ => show win0_1.index t (1 : Fin 2) * 512 + 1 * q.val = q.val; omega

/-- The projection as a whole [8192, 512] array, -/
abbrev Gh (c : Dev nD) : S8192x512.Idx → EReal := fun i => Cert.Spec.proj (V c main_arg0) (V c main_arg2) (i 0) (i 1)
/-- and the projection with every row divided by its clamped length. -/
abbrev Ghn (c : Dev nD) : S8192x512.Idx → EReal := fun i => Cert.Spec.unit (V c main_arg0) (V c main_arg2) (i 0) (i 1)

/-- An element (j0, j1) of the output block at point t sits in the array at (1024 t + j0, j1): window 2, -/
theorem blk2_emb (t : Fin cfg0.N) (j : S1024x512.Idx) (r : Fin 8192) (hr : r.val = t.val * 1024 + (j 0).val) :
    ((cfg0.win 2).blk t).view.emb j = ix2 r (j 1) := by
  obtain ⟨-, -, -, -, e4, e5, -⟩ := idx_facts0 t
  funext a; apply Fin.ext
  match a with
  | ⟨0, _⟩ => show win0_2.index t (0 : Fin 2) * 1024 + 1 * (j 0).val = r.val; omega
  | ⟨1, _⟩ => show win0_2.index t (1 : Fin 2) * 512 + 1 * (j 1).val = (j 1).val; omega

/-- and window 3. -/
theorem blk3_emb (t : Fin cfg0.N) (j : S1024x512.Idx) (r : Fin 8192) (hr : r.val = t.val * 1024 + (j 0).val) :
    ((cfg0.win 3).blk t).view.emb j = ix2 r (j 1) := by
  obtain ⟨-, -, -, -, -, -, e6, e7⟩ := idx_facts0 t
  funext a; apply Fin.ext
  match a with
  | ⟨0, _⟩ => show win0_3.index t (0 : Fin 2) * 1024 + 1 * (j 0).val = r.val; omega
  | ⟨1, _⟩ => show win0_3.index t (1 : Fin 2) * 512 + 1 * (j 1).val = (j 1).val; omega

/-- A block row below 1024 at a point below 8 is an array row below 8192. -/
theorem row_lt (t : Fin cfg0.N) (j : S1024x512.Idx) : t.val * 1024 + (j 0).val < 8192 := by
  have ht : t.val < 8 := lt_of_lt_of_eq t.isLt N_0
  have hj : (j 0).val < 1024 := (j 0).isLt
  omega

/-- What point t writes back to the first output array is block t of the projection. -/
theorem flushed0_2_eq (c : Dev nD) (t : Fin cfg0.N) :
    (dat0 V c).flushed 2 t = ((cfg0.win 2).blk t).view.read (Elt Ideal) (Gh V c) := by
  show (cfg0.win 2).cut (grid0.coords t) ((dat0 V c).after 2 t) = _
  rw [after0_2]
  unfold out0_2
  rw [View.canon_unit_zero hz]
  simp only [View.ld_unit_zero (S := S1024x512) hz, View.ld_unit_zero (S := S512x512) hz]
  funext j
  show k0_pay2 (iblk0 V c 0 t) (iblk0 V c 1 t) j = Gh V c (((cfg0.win 2).blk t).view.emb j)
  rw [blk2_emb t j ⟨t.val * 1024 + (j 0).val, row_lt t j⟩ rfl]
  exact (congrArg (k0_pay2 (iblk0 V c 0 t) (iblk0 V c 1 t)) (eq_ix2 j)).trans
    (pay2_proj (V c main_arg0) (V c main_arg2) (iblk0 V c 0 t) (iblk0 V c 1 t) (j 0) ⟨t.val * 1024 + (j 0).val, row_lt t j⟩
      (iblk0_0_apply V c t (j 0) _ rfl) (iblk0_1_apply V c t) (j 1))

/-- What point t writes back to the second output array is block t of the scaled projection. -/
theorem flushed0_3_eq (c : Dev nD) (t : Fin cfg0.N) :
    (dat0 V c).flushed 3 t = ((cfg0.win 3).blk t).view.read (Elt Ideal) (Ghn V c) := by
  show (cfg0.win 3).cut (grid0.coords t) ((dat0 V c).after 3 t) = _
  rw [after0_3]
  unfold out0_3
  rw [View.canon_unit_zero hz]
  simp only [View.ld_unit_zero (S := S1024x512) hz, View.ld_unit_zero (S := S512x512) hz]
  funext j
  show k0_pay3 (iblk0 V c 0 t) (iblk0 V c 1 t) j = Ghn V c (((cfg0.win 3).blk t).view.emb j)
  rw [blk3_emb t j ⟨t.val * 1024 + (j 0).val, row_lt t j⟩ rfl]
  exact (congrArg (k0_pay3 (iblk0 V c 0 t) (iblk0 V c 1 t)) (eq_ix2 j)).trans
    (pay3_unit (V c main_arg0) (V c main_arg2) (iblk0 V c 0 t) (iblk0 V c 1 t) (j 0) ⟨t.val * 1024 + (j 0).val, row_lt t j⟩
      (iblk0_0_apply V c t (j 0) _ rfl) (iblk0_1_apply V c t) (j 1))

/-- An index of the array is in point t's block iff each coordinate is in the block's range on its axis. -/
theorem mem_blk2 (t : Fin cfg0.N) (i : S8192x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0_0).slice (win0_2.rect t)).set ↔ _
  rw [View.set_slice_whole, Rect.mem_set_unit]
  exact Iff.rfl

theorem mem_blk3 (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v0_1).slice (win0_3.rect t)).set ↔ _
  rw [View.set_slice_whole, Rect.mem_set_unit]
  exact Iff.rfl

/-- The point whose block holds array row i0: i0 / 1024. -/
def ptOf (i : S8192x512.Idx) : Fin cfg0.N :=
  ⟨(i 0).val / 1024, by have h : (i 0).val < 8192 := (i 0).isLt; rw [show cfg0.N = 8 from N_0]; omega⟩

/-- The 8 blocks of 1024 rows tile the 8192 rows: every index of the first output array is in a written-back block, -/
theorem cover0_2 (i : S8192x512.Idx) : ∃ t : Fin cfg0.N, (cfg0.win 2).flush t = true ∧ i ∈ ((cfg0.win 2).blk t).view.set := by
  refine ⟨ptOf i, flush0_2 _, ?_⟩
  obtain ⟨-, -, -, -, e4, e5, -⟩ := idx_facts0 (ptOf i)
  have hv : (ptOf i).val = (i 0).val / 1024 := rfl
  have h0 : (i 0).val < 8192 := (i 0).isLt
  have h1 : (i 1).val < 512 := (i 1).isLt
  rw [mem_blk2]
  intro a
  match a with
  | ⟨0, _⟩ => show win0_2.index (ptOf i) (0 : Fin 2) * 1024 ≤ (i 0).val ∧ (i 0).val < win0_2.index (ptOf i) (0 : Fin 2) * 1024 + 1024; omega
  | ⟨1, _⟩ => show win0_2.index (ptOf i) (1 : Fin 2) * 512 ≤ (i 1).val ∧ (i 1).val < win0_2.index (ptOf i) (1 : Fin 2) * 512 + 512; omega

/-- and of the second. -/
theorem cover0_3 (i : S8192x512.Idx) : ∃ t : Fin cfg0.N, (cfg0.win 3).flush t = true ∧ i ∈ ((cfg0.win 3).blk t).view.set := by
  refine ⟨ptOf i, flush0_3 _, ?_⟩
  obtain ⟨-, -, -, -, -, -, e6, e7⟩ := idx_facts0 (ptOf i)
  have hv : (ptOf i).val = (i 0).val / 1024 := rfl
  have h0 : (i 0).val < 8192 := (i 0).isLt
  have h1 : (i 1).val < 512 := (i 1).isLt
  rw [mem_blk3]
  intro a
  match a with
  | ⟨0, _⟩ => show win0_3.index (ptOf i) (0 : Fin 2) * 1024 ≤ (i 0).val ∧ (i 0).val < win0_3.index (ptOf i) (0 : Fin 2) * 1024 + 1024; omega
  | ⟨1, _⟩ => show win0_3.index (ptOf i) (1 : Fin 2) * 512 ≤ (i 1).val ∧ (i 1).val < win0_3.index (ptOf i) (1 : Fin 2) * 512 + 512; omega

/-! ## The two output arrays after the launch -/

/-- The first output array ends holding the projection x · w, index by index. -/
theorem arr0_h (c : Dev nD) :
    (dat0 (F := Ideal) V c).arrAt 2 cfg0.N = fun i => Cert.Spec.proj (V c main_arg0) (V c main_arg2) (i 0) (i 1) :=
  (dat0 V c).arrAt_eq_of_cover 2 (Gh V c) (fun t _ => flushed0_2_eq V c t) cover0_2

/-- The second output array ends holding the projection with every row divided by its clamped length. -/
theorem arr0_hn (c : Dev nD) :
    (dat0 (F := Ideal) V c).arrAt 3 cfg0.N = fun i => Cert.Spec.unit (V c main_arg0) (V c main_arg2) (i 0) (i 1) :=
  (dat0 V c).arrAt_eq_of_cover 3 (Ghn V c) (fun t _ => flushed0_3_eq V c t) cover0_3

end Cert.KernelIdeal.HandValue

end
-- ==== Proof.Region1Pieces.lean ====
/-
  What each control case of the second kernel's body leaves in the two accumulators and in the
  output tile, as the body's own arithmetic terms: with key-tile coordinate 0 the accumulators hold
  this tile's contribution added to zero; otherwise this tile's contribution added to what was
  carried; and with key-tile coordinate 7 the output tile holds the quotient of the two updated
  accumulators plus the bias row.
-/
import proofs.«146084_j48653389529424_2_alg».proof.Proof.Region1
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

/-- Both offsets of every load and store of the body are zero: each reads or writes a whole tile. -/
theorem hz2 : (![0, 0] : Fin 2 → Nat) = fun _ => 0 := funext fun a => by fin_cases a <;> rfl

/-! ## Key-tile coordinate 0: the accumulators are zeroed, then this tile is added -/

/-- The total-weight accumulator ends at zero plus this tile's row sums. -/
theorem sout1_A_0_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) :
    sout1_A_0 c i arg2 harg2 arg3 harg3 arg4 harg4 arg5 harg5 arg6 harg6 arg7 harg7 arg8 harg8 arg9 harg9 hc0 hc1 x0 x1 x2 x3 x4 = k1_pay5 x0 x1 x3 k1_pay2 := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S1024x1) hz2, View.readCov_unit_zero (S := S1024x1) _ hz2]
  simp only [View.readAt_eq_ld, harg2.read_unread, harg3.read_unread, harg4.read_unread, harg5.read_unread, harg6.read_unread, harg8.read_unread, harg9.read_unread, View.ld_unit_zero (S := S1024x512) hz2, View.ld_unit_zero (S := S1024x1024) hz2, View.ld_unit_zero (S := S1024x1) hz2, View.ld_unit_zero (S := S1x512) hz2]
  try rfl

/-- The weighted-sum accumulator ends at zero plus this tile's weighted value rows. -/
theorem sout1_A_1_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) :
    sout1_A_1 c i arg2 harg2 arg3 harg3 arg4 harg4 arg5 harg5 arg6 harg6 arg7 harg7 arg8 harg8 arg9 harg9 hc0 hc1 x0 x1 x2 x3 x4 = k1_pay6 x0 x1 x2 x3 k1_pay3 := by
  unfold sout1_A_1
  rw [View.read_writes_eq_canon _ _ _ (scover1_A_1 c i arg2 harg2 arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S1024x512) hz2, View.readCov_unit_zero (S := S1024x512) _ hz2]
  simp only [View.readAt_eq_ld, harg2.read_unread, harg3.read_unread, harg4.read_unread, harg5.read_unread, harg6.read_unread, harg8.read_unread, harg9.read_unread, View.ld_unit_zero (S := S1024x512) hz2, View.ld_unit_zero (S := S1024x1024) hz2, View.ld_unit_zero (S := S1024x1) hz2, View.ld_unit_zero (S := S1x512) hz2]
  try rfl

/-! ## Key-tile coordinate strictly between 0 and 7: this tile is added to what was carried -/

theorem sout1_B_0_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) :
    sout1_B_0 c i arg2 harg2 arg3 harg3 arg4 harg4 arg5 harg5 arg6 harg6 arg7 harg7 arg8 harg8 arg9 harg9 hc0 hc1 x0 x1 x2 x3 x4 xs0 xs1 = k1_pay5 x0 x1 x3 xs0 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 x4 xs0 xs1)]
  unfold kernelRun1_B
  dsimp only
  sl_unfold_words
  rw [View.canon_unit_zero (S := S1024x1) hz2]
  simp only [View.readAt_eq_ld, harg2.read_unread, harg3.read_unread, harg4.read_unread, harg5.read_unread, harg6.read_unread, harg8.read_unread, harg9.read_unread, View.ld_unit_zero (S := S1024x512) hz2, View.ld_unit_zero (S := S1024x1024) hz2, View.ld_unit_zero (S := S1024x1) hz2, View.ld_unit_zero (S := S1x512) hz2]
  try rfl

theorem sout1_B_1_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : ¬cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) :
    sout1_B_1 c i arg2 harg2 arg3 harg3 arg4 harg4 arg5 harg5 arg6 harg6 arg7 harg7 arg8 harg8 arg9 harg9 hc0 hc1 x0 x1 x2 x3 x4 xs0 xs1 = k1_pay6 x0 x1 x2 x3 xs1 := by
  unfold sout1_B_1
  rw [View.read_writes_eq_canon _ _ _ (scover1_B_1 c i arg2 harg2 arg3 harg3 arg4 harg4 arg5 harg5 arg6 harg6 arg7 harg7 arg8 harg8 arg9 harg9 hc0 hc1 x0 x1 x2 x3 x4 xs0 xs1)]
  unfold kernelRun1_B
  dsimp only
  sl_unfold_words
  rw [View.canon_unit_zero (S := S1024x512) hz2]
  simp only [View.readAt_eq_ld, harg2.read_unread, harg3.read_unread, harg4.read_unread, harg5.read_unread, harg6.read_unread, harg8.read_unread, harg9.read_unread, View.ld_unit_zero (S := S1024x512) hz2, View.ld_unit_zero (S := S1024x1024) hz2, View.ld_unit_zero (S := S1024x1) hz2, View.ld_unit_zero (S := S1x512) hz2]
  try rfl

/-! ## Key-tile coordinate 7: this tile is added, then the quotient plus the bias is stored -/

theorem sout1_C_0_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) :
    sout1_C_0 c i arg2 harg2 arg3 harg3 arg4 harg4 arg5 harg5 arg6 harg6 arg7 harg7 arg8 harg8 arg9 harg9 hc0 hc1 x0 x1 x2 x3 x4 xs0 xs1 = k1_pay5 x0 x1 x3 xs0 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 x4 xs0 xs1)]
  unfold kernelRun1_C
  dsimp only
  sl_unfold_words
  rw [View.canon_unit_zero (S := S1024x1) hz2]
  simp only [View.readAt_eq_ld, harg2.read_unread, harg3.read_unread, harg4.read_unread, harg5.read_unread, harg6.read_unread, harg8.read_unread, harg9.read_unread, View.ld_unit_zero (S := S1024x512) hz2, View.ld_unit_zero (S := S1024x1024) hz2, View.ld_unit_zero (S := S1024x1) hz2, View.ld_unit_zero (S := S1x512) hz2]
  try rfl

theorem sout1_C_1_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) :
    sout1_C_1 c i arg2 harg2 arg3 harg3 arg4 harg4 arg5 harg5 arg6 harg6 arg7 harg7 arg8 harg8 arg9 harg9 hc0 hc1 x0 x1 x2 x3 x4 xs0 xs1 = k1_pay6 x0 x1 x2 x3 xs1 := by
  unfold sout1_C_1
  rw [View.read_writes_eq_canon _ _ _ (scover1_C_1 c i arg2 harg2 arg3 harg3 arg4 harg4 arg5 harg5 arg6 harg6 arg7 harg7 arg8 harg8 arg9 harg9 hc0 hc1 x0 x1 x2 x3 x4 xs0 xs1)]
  unfold kernelRun1_C
  dsimp only
  sl_unfold_words
  rw [View.canon_unit_zero (S := S1024x512) hz2]
  simp only [View.readAt_eq_ld, harg2.read_unread, harg3.read_unread, harg4.read_unread, harg5.read_unread, harg6.read_unread, harg8.read_unread, harg9.read_unread, View.ld_unit_zero (S := S1024x512) hz2, View.ld_unit_zero (S := S1024x1024) hz2, View.ld_unit_zero (S := S1024x1) hz2, View.ld_unit_zero (S := S1x512) hz2]
  try rfl

/-- The output tile: the updated weighted sums divided by the updated total weights, plus the bias row. -/
theorem out1_C_5_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1024x512 .bf16) (x1 : Vec F S1024x512 .bf16) (x2 : Vec F S1024x512 .bf16) (x3 : Vec F S1024x1024 .f32) (x4 : Vec F S1x512 .f32) (xs0 : Vec F S1024x1 .f32) (xs1 : Vec F S1024x512 .f32) :
    out1_C_5 c i arg2 harg2 arg3 harg3 arg4 harg4 arg5 harg5 arg6 harg6 arg7 harg7 arg8 harg8 arg9 harg9 hc0 hc1 x0 x1 x2 x3 x4 xs0 xs1 = k1_pay1 (k1_pay6 x0 x1 x2 x3 xs1) (k1_pay5 x0 x1 x3 xs0) x4 := by
  unfold out1_C_5
  rw [View.read_writes_eq_canon _ _ _ (cover1_C_5 c i arg2 harg2 arg3 harg3 arg4 harg4 arg5 harg5 arg6 harg6 arg7 harg7 arg8 harg8 arg9 harg9 hc0 hc1 x0 x1 x2 x3 x4 xs0 xs1)]
  unfold kernelRun1_C
  dsimp only
  sl_unfold_words
  rw [View.canon_unit_zero (S := S1024x512) hz2, View.readCov_unit_zero (S := S1024x512) _ hz2, View.readCov_unit_zero (S := S1024x1) _ hz2]
  simp only [View.readAt_eq_ld, harg2.read_unread, harg3.read_unread, harg4.read_unread, harg5.read_unread, harg6.read_unread, harg8.read_unread, harg9.read_unread, View.ld_unit_zero (S := S1024x512) hz2, View.ld_unit_zero (S := S1024x1024) hz2, View.ld_unit_zero (S := S1024x1) hz2, View.ld_unit_zero (S := S1x512) hz2]
  try rfl

end Cert.KernelIdeal.HandValue

end
-- ==== Proof.Region1Tiles.lean ====
/-
  Sums over 8192 rows regrouped as eight runs of 1024 rows (one run per key tile), and the partial
  sums over the first few tiles: what a running total that starts at tile 0 and adds one tile per
  step holds after each step. Everything here is in a commutative additive monoid; nothing is
  assumed finite or real.
-/
import Mathlib.Algebra.BigOperators.Fin
import Mathlib.Algebra.BigOperators.Group.Finset.Basic
import Mathlib.Data.Fintype.BigOperators

noncomputable section

namespace Cert.KernelIdeal.HandValue

/-- Row `b` of tile `a`: row 1024·a + b of the 8192. -/
def trow (a : Fin 8) (b : Fin 1024) : Fin 8192 := ⟨1024 * a.val + b.val, by have := a.isLt; have := b.isLt; omega⟩

theorem trow_val (a : Fin 8) (b : Fin 1024) : (trow a b).val = 1024 * a.val + b.val := rfl

/-- A row is a tile and a position inside it. -/
def tileEquiv : Fin 8 × Fin 1024 ≃ Fin 8192 where
  toFun p := trow p.1 p.2
  invFun s := (⟨s.val / 1024, by have := s.isLt; omega⟩, ⟨s.val % 1024, Nat.mod_lt _ (by decide)⟩)
  left_inv p := by
    obtain ⟨a, b⟩ := p
    have ha := a.isLt
    have hb := b.isLt
    refine Prod.ext (Fin.ext ?_) (Fin.ext ?_)
    · show (1024 * a.val + b.val) / 1024 = a.val
      omega
    · show (1024 * a.val + b.val) % 1024 = b.val
      omega
  right_inv s := by
    apply Fin.ext
    show 1024 * (s.val / 1024) + s.val % 1024 = s.val
    omega

variable {M : Type*} [AddCommMonoid M]

/-- A sum over all rows is the sum over the tiles of the sums inside each tile. -/
theorem sum_tiles (f : Fin 8192 → M) : ∑ s, f s = ∑ a : Fin 8, ∑ b : Fin 1024, f (trow a b) := by
  rw [← Equiv.sum_comp tileEquiv f, Fintype.sum_prod_type]
  rfl

/-- The sum of `g` over the tiles 0, …, k. -/
def upto (g : Fin 8 → M) (k : ℕ) : M := ∑ a ∈ Finset.univ.filter (fun a : Fin 8 => a.val ≤ k), g a

theorem upto_zero (g : Fin 8 → M) : upto g 0 = g 0 := by
  unfold upto
  have e : Finset.univ.filter (fun a : Fin 8 => a.val ≤ 0) = {0} := by
    ext a
    simp only [Finset.mem_filter, Finset.mem_univ, true_and, Finset.mem_singleton]
    constructor
    · intro h; exact Fin.ext (by show a.val = 0; omega)
    · intro h; subst h; exact Nat.le_refl _
  rw [e, Finset.sum_singleton]

theorem upto_succ (g : Fin 8 → M) (k : ℕ) (hk : k + 1 < 8) : upto g (k + 1) = upto g k + g ⟨k + 1, hk⟩ := by
  unfold upto
  have e : Finset.univ.filter (fun a : Fin 8 => a.val ≤ k + 1)
      = insert (⟨k + 1, hk⟩ : Fin 8) (Finset.univ.filter (fun a : Fin 8 => a.val ≤ k)) := by
    ext a
    simp only [Finset.mem_filter, Finset.mem_univ, true_and, Finset.mem_insert]
    constructor
    · intro h
      by_cases h' : a.val ≤ k
      · exact Or.inr h'
      · exact Or.inl (Fin.ext (by show a.val = k + 1; omega))
    · rintro (h | h)
      · subst h; exact Nat.le_refl _
      · omega
  have hn : (⟨k + 1, hk⟩ : Fin 8) ∉ Finset.univ.filter (fun a : Fin 8 => a.val ≤ k) := by
    simp only [Finset.mem_filter, Finset.mem_univ, true_and]
    omega
  rw [e, Finset.sum_insert hn, add_comm]

theorem upto_seven (g : Fin 8 → M) : upto g 7 = ∑ a, g a := by
  unfold upto
  have e : Finset.univ.filter (fun a : Fin 8 => a.val ≤ 7) = Finset.univ := by
    ext a
    simp only [Finset.mem_filter, Finset.mem_univ, true_and, iff_true]
    have := a.isLt
    omega
  rw [e]

end Cert.KernelIdeal.HandValue

end
-- ==== Proof.SpecAttend.lean ====
/-
  The second kernel's result as a function of its own four inputs: rows u (scaled to unit length),
  rows h (the values averaged), the adjacency a and the bias as a row. For row r and column j,
    (sum_s p_rs h_sj) / (sum_s p_rs) + bias_j,   p_rs = (a_rs + eps) · exp (sum_k u_rk u_sk).
  The specification is this function of the specification's own projected and scaled rows.
-/
import proofs.«146084_j48653389529424_2_alg».proof.Proof.Spec

noncomputable section

namespace Cert.Spec

open Idealize.ShloMosaic Idealize.ShloMosaic.ValueIdx

/-- The bias as a one-row matrix. -/
abbrev SR : Shape := ⟨2, ![1, 512]⟩

/-- The unnormalised weight of row s for row r, from the scaled rows and the adjacency. -/
def pw (u : SX.Idx → EReal) (a : SA.Idx → EReal) (r s : Fin 8192) : EReal :=
  (a (ix2 r s) + eps) * Ideal.exp (∑ k : Fin 512, u (ix2 r k) * u (ix2 s k))

/-- The weighted mean of the rows of h with weights pw, plus the bias row. -/
def attend (u h : SX.Idx → EReal) (a : SA.Idx → EReal) (br : SR.Idx → EReal) : SX.Idx → EReal := fun i =>
  Ideal.div (∑ s : Fin 8192, pw u a (i 0) s * h (ix2 s (i 1))) (∑ s : Fin 8192, pw u a (i 0) s) + br (ix2 0 (i 1))

/-- The specification is `attend` of its own scaled rows, projected rows, adjacency and bias row. -/
theorem out_eq_attend (x : SX.Idx → EReal) (a : SA.Idx → EReal) (w : SW.Idx → EReal) (b : SB.Idx → EReal) :
    out x a w b = attend (fun i => unit x w (i 0) (i 1)) (fun i => proj x w (i 0) (i 1)) a (fun i => b (ix1 (i 1))) := by
  funext i
  rfl

end Cert.Spec

end
-- ==== Proof.Region1Payloads.lean ====
/-
  The attention kernel's arithmetic read at an index, over the extended reals.

  For a query tile q, a key tile k, a value tile v (each 1024 rows of 512 entries), an adjacency tile adj (1024 by 1024),
  a bias row, and the two running accumulators l (a column) and acc (1024 by 512), the kernel forms
    p_rs    = (adj_rs + eps) · exp (Σ_j q_rj k_sj)         the unnormalised weights,
    l'_r    = l_r + Σ_s p_rs                               the running total weight,
    acc'_rj = acc_rj + Σ_s p_rs v_sj                       the running weighted sum,
    out_rj  = acc_rj / l_r + bias_j                        the result after the last key tile,
  and starts both accumulators from zero. With exact arithmetic a change of format is the identity, a shape cast to the
  same shape is the identity, and a matrix product into the zero matrix is the plain sum over the contracted axis, so
  each of these values, read at one entry, is the displayed expression.
-/
import proofs.«146084_j48653389529424_2_alg».proof.Proof.Gen.KernelIdeal.Skeleton
import proofs.«146084_j48653389529424_2_alg».proof.Proof.SpecAttend
import proofs.«146084_j48653389529424_2_alg».proof.Proof.LibColumns
import proofs.«146084_j48653389529424_2_alg».proof.Proof.LibMatmul
import proofs.«146084_j48653389529424_2_alg».proof.Proof.LibRowSums
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.HandValue

open Cert.KernelIdeal Cert.KernelIdeal.Gen Idealize.ShloMosaic Idealize.ShloMosaic.ValueIdx

/-! ## The two accumulators start from zero -/

/-- The total weight starts at zero in every row. -/
theorem pay2_apply (r : Fin 1024) : k1_pay2 (F := Ideal) (ix2 r (0 : Fin 1)) = 0 := by
  unfold k1_pay2
  rw [shapeCast_self]
  exact Ideal.ofBits_zero_f32

/-- The weighted sum starts at zero in every entry. -/
theorem pay3_apply (r : Fin 1024) (j : Fin 512) : k1_pay3 (F := Ideal) (ix2 r j) = 0 := by
  unfold k1_pay3
  rw [shapeCast_self]
  exact Ideal.ofBits_zero_f32

/-! ## The similarity of a query row and a key row -/

/-- The product of the query tile with the transposed key tile keeps the row of its left operand. -/
theorem simL0 (i : S1024x1024.Idx) (c : dot_S1024x512_S1024x512_S1024x1024_1_1_0_0_n_n.contr.Idx) :
    (dot_S1024x512_S1024x512_S1024x1024_1_1_0_0_n_n.lhsIdx i c 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl

/-- ... and takes the row of its right operand from the result's column. -/
theorem simR0 (i : S1024x1024.Idx) (c : dot_S1024x512_S1024x512_S1024x1024_1_1_0_0_n_n.contr.Idx) :
    (dot_S1024x512_S1024x512_S1024x1024_1_1_0_0_n_n.rhsIdx i c 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

/-- Entry (r, s) of the product of the query tile with the transposed key tile, accumulated into the zero matrix, is the
    inner product of query row r and key row s: both operands are contracted along their second axis. -/
theorem sim_apply (q k : FVec Ideal S1024x512 .bf16) (r s : Fin 1024) :
    FloatOps.matmul dot_S1024x512_S1024x512_S1024x1024_1_1_0_0_n_n none q k
        (constant (F := Ideal) S1024x1024 .f32 0x00000000#32) (ix2 r s)
      = ∑ j : Fin 512, q (ix2 r j) * k (ix2 s j) := by
  rw [Ideal.matmul_constant_zero_apply,
    ← Equiv.sum_comp (contrEquiv1 dot_S1024x512_S1024x512_S1024x1024_1_1_0_0_n_n 512 rfl rfl).symm]
  refine Finset.sum_congr rfl fun j _ => ?_
  have hj := contrEquiv1_symm_val dot_S1024x512_S1024x512_S1024x1024_1_1_0_0_n_n 512 rfl rfl j
  have el : dot_S1024x512_S1024x512_S1024x1024_1_1_0_0_n_n.lhsIdx (ix2 r s)
      ((contrEquiv1 dot_S1024x512_S1024x512_S1024x1024_1_1_0_0_n_n 512 rfl rfl).symm j) = ix2 r j :=
    funext fun a => Fin.ext (by
      match a with
      | ⟨0, _⟩ => exact simL0 _ _
      | ⟨1, _⟩ => exact (dot_S1024x512_S1024x512_S1024x1024_1_1_0_0_n_n.lhsIdx_val_of_single rfl (ix2 r s) _).trans hj)
  have er : dot_S1024x512_S1024x512_S1024x1024_1_1_0_0_n_n.rhsIdx (ix2 r s)
      ((contrEquiv1 dot_S1024x512_S1024x512_S1024x1024_1_1_0_0_n_n 512 rfl rfl).symm j) = ix2 s j :=
    funext fun a => Fin.ext (by
      match a with
      | ⟨0, _⟩ => exact simR0 _ _
      | ⟨1, _⟩ => exact (dot_S1024x512_S1024x512_S1024x1024_1_1_0_0_n_n.rhsIdx_val_of_single rfl (ix2 r s) _).trans hj)
  rw [el, er]

/-! ## The unnormalised weights -/

/-- The weight of key row s for query row r: the adjacency entry plus the small constant, times the exponential of the
    rows' inner product. -/
theorem pay4_apply (q k : Vec Ideal S1024x512 .bf16) (adj : Vec Ideal S1024x1024 .f32) (r s : Fin 1024) :
    k1_pay4 (F := Ideal) q k adj (ix2 r s)
      = (adj (ix2 r s) + Cert.Spec.eps) * Ideal.exp (∑ j : Fin 512, q (ix2 r j) * k (ix2 s j)) := by
  unfold k1_pay4
  rw [shapeCast_self, shapeCast_self]
  show (adj (ix2 r s) + Ideal.ofBits .f32 0x322BCC77#32) * Ideal.exp _ = _
  unfold Cert.Spec.eps
  exact congrArg (fun t => (adj (ix2 r s) + Ideal.ofBits .f32 0x322BCC77#32) * Ideal.exp t) (sim_apply q k r s)

/-! ## The running total weight -/

/-- The total weight of row r after this key tile: what it was, plus the sum of the row's weights over the tile. -/
theorem pay5_apply (q k : Vec Ideal S1024x512 .bf16) (adj : Vec Ideal S1024x1024 .f32) (l : Vec Ideal S1024x1 .f32)
    (r : Fin 1024) :
    k1_pay5 (F := Ideal) q k adj l (ix2 r (0 : Fin 1))
      = l (ix2 r 0) + ∑ s : Fin 1024, k1_pay4 (F := Ideal) q k adj (ix2 r s) := by
  unfold k1_pay5
  generalize k1_pay4 (F := Ideal) q k adj = p
  rw [shapeCast_self]
  exact congrArg (fun t => l (ix2 r 0) + t)
    (Cert.LibRowSums.laneSum_apply p 0x00000000#32 reduces_S1024x1024_S1024 (.inl rfl) rfl shapeCasts_S1024_S1024x1 r 0)

/-! ## The running weighted sum -/

/-- Entry (r, j) of the weighted sum after this key tile: what it was, plus the sum over the tile's rows s of the
    weight of s times entry j of value row s. -/
theorem pay6_apply (q k v : Vec Ideal S1024x512 .bf16) (adj : Vec Ideal S1024x1024 .f32)
    (acc : Vec Ideal S1024x512 .f32) (r : Fin 1024) (j : Fin 512) :
    k1_pay6 (F := Ideal) q k v adj acc (ix2 r j)
      = acc (ix2 r j) + ∑ s : Fin 1024, k1_pay4 (F := Ideal) q k adj (ix2 r s) * v (ix2 s j) := by
  unfold k1_pay6
  generalize k1_pay4 (F := Ideal) q k adj = p
  rw [shapeCast_self, shapeCast_self]
  exact congrArg (fun t => acc (ix2 r j) + t)
    (Cert.LibMatmul.plain_matmul_zero_apply (A := 1024) (K := 1024) (B := 512) none
      (truncf .bf16 p bitsLt_bf16_f32 : FVec Ideal S1024x1024 .bf16) v r j)

/-! ## The result after the last key tile -/

/-- Entry (r, j) of the result: the weighted sum divided by the row's total weight, plus entry j of the bias row. -/
theorem pay1_apply (acc : Vec Ideal S1024x512 .f32) (l : Vec Ideal S1024x1 .f32) (bias : Vec Ideal S1x512 .f32)
    (r : Fin 1024) (j : Fin 512) :
    k1_pay1 (F := Ideal) acc l bias (ix2 r j)
      = Ideal.div (acc (ix2 r j)) (l (ix2 r 0)) + bias (ix2 (0 : Fin 1) j) := by
  unfold k1_pay1
  rw [shapeCast_self]
  exact congrArg₂ (fun a b => Ideal.div (acc (ix2 r j)) a + b)
    (Cert.LibColumns.broadcastTo_a1_ab_apply l broadcasts_S1024x1_S1024x512 r j)
    (broadcastTo_1b_ab_apply bias broadcasts_S1x512_S1024x512 r j)

end Cert.KernelIdeal.HandValue

end
-- ==== Proof.Region1Blocks.lean ====
/-
  The second kernel's input blocks read as entries of the whole arrays, and each key tile's share
  of a query row's total weight and weighted sum. At the grid point in position t the query block is
  rows 1024·(t / 8) … of the scaled rows, the key and value blocks are rows 1024·(t % 8) … of the
  scaled rows and of the value rows, and the adjacency block is the matching 1024 by 1024 square.
-/
import proofs.«146084_j48653389529424_2_alg».proof.Proof.Region1Pieces
import proofs.«146084_j48653389529424_2_alg».proof.Proof.Region1Tiles
import proofs.«146084_j48653389529424_2_alg».proof.Proof.Region1Payloads
import proofs.«146084_j48653389529424_2_alg».proof.Proof.SpecAttend
import Idealize.ShloMosaic.Lib.Pipeline.Value
import Idealize.ShloMosaic.PureOps.Ideal
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The four arrays the second kernel reads, as functions of an index: the scaled rows, the value
    rows, the adjacency and the bias row. -/
abbrev arrU (c : Dev nD) : Cert.Spec.SX.Idx → EReal := V c main_v0_1
abbrev arrH (c : Dev nD) : Cert.Spec.SX.Idx → EReal := V c main_v0_0
abbrev arrA (c : Dev nD) : Cert.Spec.SA.Idx → EReal := V c main_arg1
abbrev arrB (c : Dev nD) : Cert.Spec.SR.Idx → EReal := V c main_v1

/-- The five input blocks at a grid point, at their literal tile shapes. -/
abbrev B0 (c : Dev nD) (t : Fin cfg1.N) : Vec Ideal S1024x512 .bf16 := iblk1 V c 0 t
abbrev B1 (c : Dev nD) (t : Fin cfg1.N) : Vec Ideal S1024x512 .bf16 := iblk1 V c 1 t
abbrev B2 (c : Dev nD) (t : Fin cfg1.N) : Vec Ideal S1024x512 .bf16 := iblk1 V c 2 t
abbrev B3 (c : Dev nD) (t : Fin cfg1.N) : Vec Ideal S1024x1024 .f32 := iblk1 V c 3 t
abbrev B4 (c : Dev nD) (t : Fin cfg1.N) : Vec Ideal S1x512 .f32 := iblk1 V c 4 t

/-- The query tile and the key tile of the grid point at position n: query tile n / 8, key tile n % 8
    (written so as to be tiles for every natural number; below 64 the first is n / 8). -/
def qt (n : ℕ) : Fin 8 := ⟨n / 8 % 8, Nat.mod_lt _ (by decide)⟩
def kt (n : ℕ) : Fin 8 := ⟨n % 8, Nat.mod_lt _ (by decide)⟩

/-- The printed index maps over the grid: which block of its array each window holds at a point. -/
theorem idx_facts1 : ∀ t : Fin cfg1.N,
    win1_0.index t (0 : Fin 2) = t.val / 8 ∧ win1_0.index t (1 : Fin 2) = 0
  ∧ win1_1.index t (0 : Fin 2) = t.val % 8 ∧ win1_1.index t (1 : Fin 2) = 0
  ∧ win1_2.index t (0 : Fin 2) = t.val % 8 ∧ win1_2.index t (1 : Fin 2) = 0
  ∧ win1_3.index t (0 : Fin 2) = t.val / 8 ∧ win1_3.index t (1 : Fin 2) = t.val % 8
  ∧ win1_4.index t (0 : Fin 2) = 0 ∧ win1_4.index t (1 : Fin 2) = 0
  ∧ win1_5.index t (0 : Fin 2) = t.val / 8 ∧ win1_5.index t (1 : Fin 2) = 0 :=
  (by decide +kernel : ∀ t : Fin grid1.N, _)

/-- The query block: row r of it is row 1024·(t / 8) + r of the scaled rows. -/
theorem blk0_apply (c : Dev nD) (t : Fin cfg1.N) (r : Fin 1024) (j : Fin 512) :
    B0 V c t (ix2 r j) = arrU V c (ix2 (trow (qt t.val) r) j) := by
  obtain ⟨e00, e01, -⟩ := idx_facts1 t
  have hN : cfg1.N = 64 := N_1
  have ht := t.isLt
  unfold B0 iblk1
  rw [View.read_apply]
  show V c main_v0_1 _ = V c main_v0_1 _
  congr 1
  funext a
  apply Fin.ext
  match a with
  | ⟨0, _⟩ => show win1_0.index t (0 : Fin 2) * 1024 + 1 * r.val = 1024 * (t.val / 8 % 8) + r.val; rw [e00]; omega
  | ⟨1, _⟩ => show win1_0.index t (1 : Fin 2) * 512 + 1 * j.val = j.val; rw [e01]; omega

/-- The key block: row s of it is row 1024·(t % 8) + s of the scaled rows. -/
theorem blk1_apply (c : Dev nD) (t : Fin cfg1.N) (s : Fin 1024) (j : Fin 512) :
    B1 V c t (ix2 s j) = arrU V c (ix2 (trow (kt t.val) s) j) := by
  obtain ⟨-, -, e10, e11, -⟩ := idx_facts1 t
  unfold B1 iblk1
  rw [View.read_apply]
  show V c main_v0_1 _ = V c main_v0_1 _
  congr 1
  funext a
  apply Fin.ext
  match a with
  | ⟨0, _⟩ => show win1_1.index t (0 : Fin 2) * 1024 + 1 * s.val = 1024 * (t.val % 8) + s.val; rw [e10]; omega
  | ⟨1, _⟩ => show win1_1.index t (1 : Fin 2) * 512 + 1 * j.val = j.val; rw [e11]; omega

/-- The value block: row s of it is row 1024·(t % 8) + s of the value rows. -/
theorem blk2_apply (c : Dev nD) (t : Fin cfg1.N) (s : Fin 1024) (j : Fin 512) :
    B2 V c t (ix2 s j) = arrH V c (ix2 (trow (kt t.val) s) j) := by
  obtain ⟨-, -, -, -, e20, e21, -⟩ := idx_facts1 t
  unfold B2 iblk1
  rw [View.read_apply]
  show V c main_v0_0 _ = V c main_v0_0 _
  congr 1
  funext a
  apply Fin.ext
  match a with
  | ⟨0, _⟩ => show win1_2.index t (0 : Fin 2) * 1024 + 1 * s.val = 1024 * (t.val % 8) + s.val; rw [e20]; omega
  | ⟨1, _⟩ => show win1_2.index t (1 : Fin 2) * 512 + 1 * j.val = j.val; rw [e21]; omega

/-- The adjacency block: entry (r, s) of it is entry (1024·(t / 8) + r, 1024·(t % 8) + s) of the adjacency. -/
theorem blk3_apply (c : Dev nD) (t : Fin cfg1.N) (r s : Fin 1024) :
    B3 V c t (ix2 r s) = arrA V c (ix2 (trow (qt t.val) r) (trow (kt t.val) s)) := by
  obtain ⟨-, -, -, -, -, -, e30, e31, -⟩ := idx_facts1 t
  have hN : cfg1.N = 64 := N_1
  have ht := t.isLt
  unfold B3 iblk1
  rw [View.read_apply]
  show V c main_arg1 _ = V c main_arg1 _
  congr 1
  funext a
  apply Fin.ext
  match a with
  | ⟨0, _⟩ => show win1_3.index t (0 : Fin 2) * 1024 + 1 * r.val = 1024 * (t.val / 8 % 8) + r.val; rw [e30]; omega
  | ⟨1, _⟩ => show win1_3.index t (1 : Fin 2) * 1024 + 1 * s.val = 1024 * (t.val % 8) + s.val; rw [e31]; omega

/-- The bias block is the whole bias row. -/
theorem blk4_apply (c : Dev nD) (t : Fin cfg1.N) (j : Fin 512) :
    B4 V c t (ix2 (0 : Fin 1) j) = arrB V c (ix2 (0 : Fin 1) j) := by
  obtain ⟨-, -, -, -, -, -, -, -, e40, e41, -⟩ := idx_facts1 t
  unfold B4 iblk1
  rw [View.read_apply]
  show V c main_v1 _ = V c main_v1 _
  congr 1
  funext a
  apply Fin.ext
  match a with
  | ⟨0, _⟩ => show win1_4.index t (0 : Fin 2) * 1 + 1 * 0 = 0; rw [e40]
  | ⟨1, _⟩ => show win1_4.index t (1 : Fin 2) * 512 + 1 * j.val = j.val; rw [e41]; omega

/-! ## The weights, tile by tile -/

/-- The weight of key row S for query row R. -/
abbrev W (c : Dev nD) (R S : Fin 8192) : EReal := Cert.Spec.pw (arrU V c) (arrA V c) R S

/-- Key tile a's share of the total weight of query row R. -/
def lTile (c : Dev nD) (R : Fin 8192) (a : Fin 8) : EReal := ∑ b : Fin 1024, W V c R (trow a b)

/-- Key tile a's share of the weighted sum of column j of the value rows, for query row R. -/
def accTile (c : Dev nD) (R : Fin 8192) (j : Fin 512) (a : Fin 8) : EReal :=
  ∑ b : Fin 1024, W V c R (trow a b) * arrH V c (ix2 (trow a b) j)

/-- The body's weight of row s of the key block for row r of the query block is the weight of the
    corresponding rows of the arrays. -/
theorem tile_w (c : Dev nD) (t : Fin cfg1.N) (r s : Fin 1024) :
    k1_pay4 (F := Ideal) (B0 V c t) (B1 V c t) (B3 V c t) (ix2 r s) = W V c (trow (qt t.val) r) (trow (kt t.val) s) := by
  refine (pay4_apply (B0 V c t) (B1 V c t) (B3 V c t) r s).trans ?_
  show (B3 V c t (ix2 r s) + Cert.Spec.eps) * Ideal.exp (∑ j : Fin 512, B0 V c t (ix2 r j) * B1 V c t (ix2 s j))
    = (arrA V c (ix2 (trow (qt t.val) r) (trow (kt t.val) s)) + Cert.Spec.eps)
        * Ideal.exp (∑ j : Fin 512, arrU V c (ix2 (trow (qt t.val) r) j) * arrU V c (ix2 (trow (kt t.val) s) j))
  rw [blk3_apply V c t r s]
  exact congrArg (fun x => (arrA V c (ix2 (trow (qt t.val) r) (trow (kt t.val) s)) + Cert.Spec.eps) * Ideal.exp x)
    (Finset.sum_congr rfl fun j _ => by rw [blk0_apply V c t r j, blk1_apply V c t s j])

/-- This tile's row sums of the body's weights are the key tile's share of the total weight. -/
theorem tile_l (c : Dev nD) (t : Fin cfg1.N) (r : Fin 1024) :
    ∑ s : Fin 1024, k1_pay4 (F := Ideal) (B0 V c t) (B1 V c t) (B3 V c t) (ix2 r s)
      = lTile V c (trow (qt t.val) r) (kt t.val) :=
  Finset.sum_congr rfl fun s _ => tile_w V c t r s

/-- This tile's weighted value rows are the key tile's share of the weighted sum. -/
theorem tile_acc (c : Dev nD) (t : Fin cfg1.N) (r : Fin 1024) (j : Fin 512) :
    ∑ s : Fin 1024, k1_pay4 (F := Ideal) (B0 V c t) (B1 V c t) (B3 V c t) (ix2 r s) * B2 V c t (ix2 s j)
      = accTile V c (trow (qt t.val) r) j (kt t.val) :=
  Finset.sum_congr rfl fun s _ => by rw [tile_w V c t r s, blk2_apply V c t s j]

end Cert.KernelIdeal.HandValue

end
-- ==== Proof.Region1Accum.lean ====
/-
  The second kernel's two accumulators after the body at every grid point, in closed form. Along
  the run of one query tile (eight consecutive points, one per key tile) the total weight of each
  query row and its weighted sum of value rows start from the first key tile's share and gain one
  key tile's share per point, so after the point with key tile k they are the sums over the key
  tiles 0, …, k. The proof is an induction on the point's position.
-/
import proofs.«146084_j48653389529424_2_alg».proof.Proof.Region1Blocks
import Idealize.ShloMosaic.Lib.Pipeline.Value
import Idealize.ShloMosaic.PureOps.Ideal
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The accumulators after each point, as the body's own terms

  In each equation the accumulators the point starts from are named (xl: total weights, xa:
  weighted sums) and tied to what the point before left by an equation, so that the point's own
  position is the only one the statement being rewritten mentions. -/

theorem l_A (c : Dev nD) (t : Fin cfg1.N) (h0 : t.val % 8 = 0) (h1 : ¬t.val % 8 = 7) :
    (outsAt1 V c t.val t.isLt).2.1 = k1_pay5 (F := Ideal) (B0 V c t) (B1 V c t) (B3 V c t) (k1_pay2 (F := Ideal)) := by
  rw [outsAt1_A V c t h0 h1]
  dsimp only
  exact sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (B0 V c t) (B1 V c t) (B2 V c t) (B3 V c t) (B4 V c t)

theorem acc_A (c : Dev nD) (t : Fin cfg1.N) (h0 : t.val % 8 = 0) (h1 : ¬t.val % 8 = 7) :
    (outsAt1 V c t.val t.isLt).2.2 = k1_pay6 (F := Ideal) (B0 V c t) (B1 V c t) (B2 V c t) (B3 V c t) (k1_pay3 (F := Ideal)) := by
  rw [outsAt1_A V c t h0 h1]
  dsimp only
  exact sout1_A_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (B0 V c t) (B1 V c t) (B2 V c t) (B3 V c t) (B4 V c t)

theorem l_B (c : Dev nD) (t : Fin cfg1.N) (h0 : ¬t.val % 8 = 0) (h1 : ¬t.val % 8 = 7)
    (xl : Vec Ideal S1024x1 .f32) (xa : Vec Ideal S1024x512 .f32) (hl : (outsAt1 V c (t.val - 1) (Nat.lt_of_le_of_lt (Nat.sub_le _ _) t.isLt)).2.1 = xl) (ha : (outsAt1 V c (t.val - 1) (Nat.lt_of_le_of_lt (Nat.sub_le _ _) t.isLt)).2.2 = xa) :
    (outsAt1 V c t.val t.isLt).2.1 = k1_pay5 (F := Ideal) (B0 V c t) (B1 V c t) (B3 V c t) xl := by
  rw [outsAt1_B V c t h0 h1]
  dsimp only
  rw [hl, ha]
  exact sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (B0 V c t) (B1 V c t) (B2 V c t) (B3 V c t) (B4 V c t) xl xa

theorem acc_B (c : Dev nD) (t : Fin cfg1.N) (h0 : ¬t.val % 8 = 0) (h1 : ¬t.val % 8 = 7)
    (xl : Vec Ideal S1024x1 .f32) (xa : Vec Ideal S1024x512 .f32) (hl : (outsAt1 V c (t.val - 1) (Nat.lt_of_le_of_lt (Nat.sub_le _ _) t.isLt)).2.1 = xl) (ha : (outsAt1 V c (t.val - 1) (Nat.lt_of_le_of_lt (Nat.sub_le _ _) t.isLt)).2.2 = xa) :
    (outsAt1 V c t.val t.isLt).2.2 = k1_pay6 (F := Ideal) (B0 V c t) (B1 V c t) (B2 V c t) (B3 V c t) xa := by
  rw [outsAt1_B V c t h0 h1]
  dsimp only
  rw [hl, ha]
  exact sout1_B_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (B0 V c t) (B1 V c t) (B2 V c t) (B3 V c t) (B4 V c t) xl xa

theorem l_C (c : Dev nD) (t : Fin cfg1.N) (h0 : ¬t.val % 8 = 0) (h1 : t.val % 8 = 7)
    (xl : Vec Ideal S1024x1 .f32) (xa : Vec Ideal S1024x512 .f32) (hl : (outsAt1 V c (t.val - 1) (Nat.lt_of_le_of_lt (Nat.sub_le _ _) t.isLt)).2.1 = xl) (ha : (outsAt1 V c (t.val - 1) (Nat.lt_of_le_of_lt (Nat.sub_le _ _) t.isLt)).2.2 = xa) :
    (outsAt1 V c t.val t.isLt).2.1 = k1_pay5 (F := Ideal) (B0 V c t) (B1 V c t) (B3 V c t) xl := by
  rw [outsAt1_C V c t h0 h1]
  dsimp only
  rw [hl, ha]
  exact sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (B0 V c t) (B1 V c t) (B2 V c t) (B3 V c t) (B4 V c t) xl xa

theorem acc_C (c : Dev nD) (t : Fin cfg1.N) (h0 : ¬t.val % 8 = 0) (h1 : t.val % 8 = 7)
    (xl : Vec Ideal S1024x1 .f32) (xa : Vec Ideal S1024x512 .f32) (hl : (outsAt1 V c (t.val - 1) (Nat.lt_of_le_of_lt (Nat.sub_le _ _) t.isLt)).2.1 = xl) (ha : (outsAt1 V c (t.val - 1) (Nat.lt_of_le_of_lt (Nat.sub_le _ _) t.isLt)).2.2 = xa) :
    (outsAt1 V c t.val t.isLt).2.2 = k1_pay6 (F := Ideal) (B0 V c t) (B1 V c t) (B2 V c t) (B3 V c t) xa := by
  rw [outsAt1_C V c t h0 h1]
  dsimp only
  rw [hl, ha]
  exact sout1_C_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (B0 V c t) (B1 V c t) (B2 V c t) (B3 V c t) (B4 V c t) xl xa

/-- The output tile at a point whose key-tile coordinate is 7: the quotient of the two updated
    accumulators, plus the bias row. -/
theorem out_C (c : Dev nD) (t : Fin cfg1.N) (h0 : ¬t.val % 8 = 0) (h1 : t.val % 8 = 7)
    (xl : Vec Ideal S1024x1 .f32) (xa : Vec Ideal S1024x512 .f32) (hl : (outsAt1 V c (t.val - 1) (Nat.lt_of_le_of_lt (Nat.sub_le _ _) t.isLt)).2.1 = xl) (ha : (outsAt1 V c (t.val - 1) (Nat.lt_of_le_of_lt (Nat.sub_le _ _) t.isLt)).2.2 = xa) :
    (outsAt1 V c t.val t.isLt).1
      = k1_pay1 (F := Ideal) (k1_pay6 (F := Ideal) (B0 V c t) (B1 V c t) (B2 V c t) (B3 V c t) xa)
          (k1_pay5 (F := Ideal) (B0 V c t) (B1 V c t) (B3 V c t) xl) (B4 V c t) := by
  rw [outsAt1_C V c t h0 h1]
  dsimp only
  rw [hl, ha]
  exact out1_C_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (B0 V c t) (B1 V c t) (B2 V c t) (B3 V c t) (B4 V c t) xl xa

/-! ## The accumulators in closed form -/

/-- One more tile: the running total over tiles 0, …, k plus tile k + 1's share is the running total
    over tiles 0, …, k + 1. -/
theorem upto_step {M : Type*} [AddCommMonoid M] (g : Fin 8 → M) (k k' : ℕ) (hk' : k' < 8) (h : k' = k + 1) :
    upto g k + g ⟨k', hk'⟩ = upto g k' := by
  subst h
  exact (upto_succ g k hk').symm

/-- The total weight of row r of the query tile over the key tiles seen up to position n. -/
def lAt (c : Dev nD) (n : ℕ) (r : Fin 1024) : EReal := upto (lTile V c (trow (qt n) r)) (n % 8)

/-- The weighted sum of column j of the value rows, for row r of the query tile, over the key tiles
    seen up to position n. -/
def accAt (c : Dev nD) (n : ℕ) (r : Fin 1024) (j : Fin 512) : EReal :=
  upto (accTile V c (trow (qt n) r) j) (n % 8)

/-- At a point whose key-tile coordinate is 0 the accumulators hold the first tile's shares. -/
theorem inv_A (c : Dev nD) (t : Fin cfg1.N) (h0 : t.val % 8 = 0) :
    (∀ r : Fin 1024, (outsAt1 V c t.val t.isLt).2.1 (ix2 r (0 : Fin 1)) = lAt V c t.val r)
  ∧ (∀ (r : Fin 1024) (j : Fin 512), (outsAt1 V c t.val t.isLt).2.2 (ix2 r j) = accAt V c t.val r j) := by
  have h1 : ¬t.val % 8 = 7 := by omega
  have hk : kt t.val = 0 := Fin.ext h0
  constructor
  · intro r
    rw [l_A V c t h0 h1]
    refine (pay5_apply (B0 V c t) (B1 V c t) (B3 V c t) (k1_pay2 (F := Ideal)) r).trans ?_
    rw [pay2_apply r, tile_l V c t r, hk]
    unfold lAt
    rw [h0, upto_zero]
    exact zero_add _
  · intro r j
    rw [acc_A V c t h0 h1]
    refine (pay6_apply (B0 V c t) (B1 V c t) (B2 V c t) (B3 V c t) (k1_pay3 (F := Ideal)) r j).trans ?_
    rw [pay3_apply r j, tile_acc V c t r j, hk]
    unfold accAt
    rw [h0, upto_zero]
    exact zero_add _

/-- At any other point they hold what the point before left plus this tile's shares. -/
theorem inv_step (c : Dev nD) (t : Fin cfg1.N) (h0 : ¬t.val % 8 = 0)
    (ihl : ∀ r : Fin 1024, (outsAt1 V c (t.val - 1) (Nat.lt_of_le_of_lt (Nat.sub_le _ _) t.isLt)).2.1 (ix2 r (0 : Fin 1)) = lAt V c (t.val - 1) r)
    (iha : ∀ (r : Fin 1024) (j : Fin 512), (outsAt1 V c (t.val - 1) (Nat.lt_of_le_of_lt (Nat.sub_le _ _) t.isLt)).2.2 (ix2 r j) = accAt V c (t.val - 1) r j) :
    (∀ r : Fin 1024, (outsAt1 V c t.val t.isLt).2.1 (ix2 r (0 : Fin 1)) = lAt V c t.val r)
  ∧ (∀ (r : Fin 1024) (j : Fin 512), (outsAt1 V c t.val t.isLt).2.2 (ix2 r j) = accAt V c t.val r j) := by
  have hq : qt (t.val - 1) = qt t.val := Fin.ext (by show (t.val - 1) / 8 % 8 = t.val / 8 % 8; omega)
  have hkv : t.val % 8 = (t.val - 1) % 8 + 1 := by omega
  have hk8 : t.val % 8 < 8 := Nat.mod_lt _ (by decide)
  have hkt : kt t.val = ⟨t.val % 8, hk8⟩ := rfl
  constructor
  · intro r
    have e : (outsAt1 V c t.val t.isLt).2.1
        = k1_pay5 (F := Ideal) (B0 V c t) (B1 V c t) (B3 V c t) (outsAt1 V c (t.val - 1) (Nat.lt_of_le_of_lt (Nat.sub_le _ _) t.isLt)).2.1 := by
      by_cases h1 : t.val % 8 = 7
      · exact l_C V c t h0 h1 _ _ rfl rfl
      · exact l_B V c t h0 h1 _ _ rfl rfl
    rw [e]
    refine (pay5_apply (B0 V c t) (B1 V c t) (B3 V c t) (outsAt1 V c (t.val - 1) (Nat.lt_of_le_of_lt (Nat.sub_le _ _) t.isLt)).2.1 r).trans ?_
    rw [ihl r, tile_l V c t r, hkt]
    unfold lAt
    rw [hq]
    exact upto_step (lTile V c (trow (qt t.val) r)) ((t.val - 1) % 8) (t.val % 8) hk8 hkv
  · intro r j
    have e : (outsAt1 V c t.val t.isLt).2.2
        = k1_pay6 (F := Ideal) (B0 V c t) (B1 V c t) (B2 V c t) (B3 V c t) (outsAt1 V c (t.val - 1) (Nat.lt_of_le_of_lt (Nat.sub_le _ _) t.isLt)).2.2 := by
      by_cases h1 : t.val % 8 = 7
      · exact acc_C V c t h0 h1 _ _ rfl rfl
      · exact acc_B V c t h0 h1 _ _ rfl rfl
    rw [e]
    refine (pay6_apply (B0 V c t) (B1 V c t) (B2 V c t) (B3 V c t) (outsAt1 V c (t.val - 1) (Nat.lt_of_le_of_lt (Nat.sub_le _ _) t.isLt)).2.2 r j).trans ?_
    rw [iha r j, tile_acc V c t r j, hkt]
    unfold accAt
    rw [hq]
    exact upto_step (accTile V c (trow (qt t.val) r) j) ((t.val - 1) % 8) (t.val % 8) hk8 hkv

/-- After the body at every position: the total weights and the weighted sums over the key tiles
    seen so far in this query tile's run. By induction on the position. -/
theorem accum_inv (c : Dev nD) : ∀ (n : ℕ) (hn : n < cfg1.N),
    (∀ r : Fin 1024, (outsAt1 V c n hn).2.1 (ix2 r (0 : Fin 1)) = lAt V c n r)
  ∧ (∀ (r : Fin 1024) (j : Fin 512), (outsAt1 V c n hn).2.2 (ix2 r j) = accAt V c n r j)
  | 0, hn => inv_A V c ⟨0, hn⟩ rfl
  | n + 1, hn => by
    by_cases h0 : (n + 1) % 8 = 0
    · exact inv_A V c ⟨n + 1, hn⟩ h0
    · have ih := accum_inv c n (Nat.lt_of_succ_lt hn)
      exact inv_step V c ⟨n + 1, hn⟩ h0 ih.1 ih.2

end Cert.KernelIdeal.HandValue

end
-- ==== Proof.Region1Value.lean ====
/-
  What the second kernel leaves in its result array, as one function of the four arrays it reads.
  Only the points whose key-tile coordinate is 7 store and write back an output tile; by then both
  accumulators hold the sums over all eight key tiles, that is over all 8192 key rows, so the tile
  is the quotient of the weighted sum by the total weight plus the bias row. The eight written
  tiles of 1024 rows cover the 8192 rows of the result.
-/
import proofs.«146084_j48653389529424_2_alg».proof.Proof.Region1Accum
import Idealize.ShloMosaic.Lib.Pipeline.Value
import Idealize.ShloMosaic.PureOps.Ideal
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The output tile at the points that store it -/

/-- All eight tiles' shares of a row's total weight add up to the sum over all 8192 key rows, -/
theorem sum_lTile (c : Dev nD) (R : Fin 8192) : ∑ a : Fin 8, lTile V c R a = ∑ S : Fin 8192, W V c R S :=
  (sum_tiles (fun S => W V c R S)).symm

/-- and of its weighted sum likewise. -/
theorem sum_accTile (c : Dev nD) (R : Fin 8192) (j : Fin 512) :
    ∑ a : Fin 8, accTile V c R j a = ∑ S : Fin 8192, W V c R S * arrH V c (ix2 S j) :=
  (sum_tiles (fun S => W V c R S * arrH V c (ix2 S j))).symm

/-- The second kernel's result as one array: the weighted mean of the value rows plus the bias row. -/
abbrev Gout (c : Dev nD) : Cert.Spec.SX.Idx → EReal :=
  Cert.Spec.attend (arrU V c) (arrH V c) (arrA V c) (arrB V c)

/-- At a point whose key-tile coordinate is 7, entry (r, j) of the output tile is entry
    (1024·(t / 8) + r, j) of the result: all eight key tiles have been added. -/
theorem out_apply (c : Dev nD) (t : Fin cfg1.N) (h1 : t.val % 8 = 7) (r : Fin 1024) (j : Fin 512) :
    (outsAt1 V c t.val t.isLt).1 (ix2 r j) = Gout V c (ix2 (trow (qt t.val) r) j) := by
  have h0 : ¬t.val % 8 = 0 := by omega
  obtain ⟨hl, ha⟩ := accum_inv V c t.val t.isLt
  have el := congrFun (l_C V c t h0 h1 _ _ rfl rfl) (ix2 r (0 : Fin 1))
  have ea := congrFun (acc_C V c t h0 h1 _ _ rfl rfl) (ix2 r j)
  rw [out_C V c t h0 h1 _ _ rfl rfl]
  refine (pay1_apply _ _ (B4 V c t) r j).trans ?_
  rw [← el, ← ea, hl r, ha r j, blk4_apply V c t j]
  unfold lAt accAt
  rw [h1, upto_seven, upto_seven, sum_lTile, sum_accTile]
  rfl

/-! ## From the output tiles to the array -/

/-- Entry (y0, y1) of the output block at point t sits in the array at (1024·(t / 8) + y0, y1). -/
theorem blk5_emb (t : Fin cfg1.N) (y : S1024x512.Idx) :
    ((cfg1.win 5).blk t).view.emb y = ix2 (trow (qt t.val) (y 0)) (y 1) := by
  obtain ⟨-, -, -, -, -, -, -, -, -, -, e50, e51⟩ := idx_facts1 t
  have hN : cfg1.N = 64 := N_1
  have ht := t.isLt
  funext a; apply Fin.ext
  match a with
  | ⟨0, _⟩ => show win1_5.index t (0 : Fin 2) * 1024 + 1 * (y 0).val = 1024 * (t.val / 8 % 8) + (y 0).val; rw [e50]; omega
  | ⟨1, _⟩ => show win1_5.index t (1 : Fin 2) * 512 + 1 * (y 1).val = (y 1).val; rw [e51]; omega

/-- What a point whose key-tile coordinate is 7 writes back is its block of the result. -/
theorem flushed1_5_eq (c : Dev nD) (t : Fin cfg1.N) (hf : (cfg1.win 5).flush t = true) :
    (dat1 V c).flushed 5 t = ((cfg1.win 5).blk t).view.read (Elt Ideal) (Gout V c) := by
  have h1 : t.val % 8 = 7 := (flush1_5 t).mp hf
  show (cfg1.win 5).cut (grid1.coords t) ((dat1 V c).after 5 t) = _
  rw [after1_5]
  funext y
  show (outsAt1 V c t.val t.isLt).1 y = Gout V c (((cfg1.win 5).blk t).view.emb y)
  rw [blk5_emb t y]
  exact (congrArg (outsAt1 V c t.val t.isLt).1 (eq_ix2 y)).trans (out_apply V c t h1 (y 0) (y 1))

/-- An index of the result array is in point t's block iff each coordinate is in the block's range. -/
theorem mem_blk1_5 (t : Fin cfg1.N) (i : S8192x512.Idx) :
    i ∈ ((cfg1.win 5).blk t).view.set ↔ ∀ a : Fin 2, win1_5.index t a * S1024x512.size a ≤ (i a).val ∧ (i a).val < win1_5.index t a * S1024x512.size a + S1024x512.size a := by
  show i ∈ ((View.whole main_v2).slice (win1_5.rect t)).set ↔ _
  rw [View.set_slice_whole, Rect.mem_set_unit]
  exact Iff.rfl

/-- The point that stores array row i0: the last point of the run of query tile i0 / 1024. -/
def ptOf1 (i : S8192x512.Idx) : Fin cfg1.N :=
  ⟨8 * ((i 0).val / 1024) + 7, by have h : (i 0).val < 8192 := (i 0).isLt; rw [show cfg1.N = 64 from N_1]; omega⟩

/-- The eight stored tiles of 1024 rows tile the 8192 rows of the result. -/
theorem cover1_5 (i : S8192x512.Idx) : ∃ t : Fin cfg1.N, (cfg1.win 5).flush t = true ∧ i ∈ ((cfg1.win 5).blk t).view.set := by
  have hv : (ptOf1 i).val = 8 * ((i 0).val / 1024) + 7 := rfl
  refine ⟨ptOf1 i, (flush1_5 _).mpr (by rw [hv]; omega), ?_⟩
  obtain ⟨-, -, -, -, -, -, -, -, -, -, e50, e51⟩ := idx_facts1 (ptOf1 i)
  have h0 : (i 0).val < 8192 := (i 0).isLt
  have h1 : (i 1).val < 512 := (i 1).isLt
  rw [mem_blk1_5]
  intro a
  match a with
  | ⟨0, _⟩ => show win1_5.index (ptOf1 i) (0 : Fin 2) * 1024 ≤ (i 0).val ∧ (i 0).val < win1_5.index (ptOf1 i) (0 : Fin 2) * 1024 + 1024; rw [e50, hv]; omega
  | ⟨1, _⟩ => show win1_5.index (ptOf1 i) (1 : Fin 2) * 512 ≤ (i 1).val ∧ (i 1).val < win1_5.index (ptOf1 i) (1 : Fin 2) * 512 + 512; rw [e51]; omega

/-! ## The result array after the launch -/

/-- The second kernel leaves in its result array the weighted mean of the value rows, with the
    weights of the scaled rows and the adjacency, plus the bias row. -/
theorem arr1_out (c : Dev nD) :
    (dat1 (F := Ideal) V c).arrAt 5 cfg1.N
      = Cert.Spec.attend (V c main_v0_1) (V c main_v0_0) (V c main_arg1) (V c main_v1) :=
  (dat1 V c).arrAt_eq_of_cover 5 (Gout V c) (fun t hf => flushed1_5_eq V c t hf) cover1_5

end Cert.KernelIdeal.HandValue

end
-- ==== Proof.KernelValue.lean ====
/-
  The idealized kernel's result as the specification's function of the launch arguments: the second
  kernel finds, in its four input arrays, the specification's scaled rows and projected rows (what
  the first kernel wrote), the adjacency as launched and the bias as a row; its own result is the
  weighted mean over those; so the result array ends at the specification.
-/
import proofs.«146084_j48653389529424_2_alg».proof.Proof.RunReads
import proofs.«146084_j48653389529424_2_alg».proof.Proof.Region0Value
import proofs.«146084_j48653389529424_2_alg».proof.Proof.Region1Value
import proofs.«146084_j48653389529424_2_alg».proof.Proof.SpecAttend
import Idealize.ShloMosaic.Lib.Pipeline.Value
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-- The second kernel finds, as its array of scaled rows, the specification's scaled rows of the launch arguments: the
    host reshape does not write it, and the first kernel's write-backs left exactly that. -/
theorem Vin1_u (c : Dev nD) : Vin1 m ρ c main_v0_1
    = fun i => Cert.Spec.unit (m ((c : Thread nD τ).loc main_arg0)) (m ((c : Thread nD τ).loc main_arg2)) (i 0) (i 1) :=
  (W2_of m ρ c main_v0_1 (by decide)).trans ((W1_arr m ρ c 3).trans (arr0_hn (Vin0 m ρ) c))

/-- As its array of value rows, the specification's projected rows. -/
theorem Vin1_h (c : Dev nD) : Vin1 m ρ c main_v0_0
    = fun i => Cert.Spec.proj (m ((c : Thread nD τ).loc main_arg0)) (m ((c : Thread nD τ).loc main_arg2)) (i 0) (i 1) :=
  (W2_of m ρ c main_v0_0 (by decide)).trans ((W1_arr m ρ c 2).trans (arr0_h (Vin0 m ρ) c))

/-- The adjacency as launched. -/
theorem Vin1_a (c : Dev nD) : Vin1 m ρ c main_arg1 = m ((c : Thread nD τ).loc main_arg1) :=
  (W2_of m ρ c main_arg1 (by decide)).trans (W1_of_ne m ρ c main_arg1 (by decide))

/-- The bias as a row: the host reshape of the launch bias, read at an index. -/
theorem Vin1_b (c : Dev nD) : Vin1 m ρ c main_v1 = fun i => m ((c : Thread nD τ).loc main_arg3) (ix1 (i 1)) := by
  have h3 : W1 m ρ c (Proc.devRef .tc main_arg3) = m ((c : Thread nD τ).loc main_arg3) := W1_of_ne m ρ c main_arg3 (by decide)
  show StableHlo.after hostOps1 (W1 m ρ c) (Proc.devRef .tc main_v1) = _
  after_results
  rw [h3]
  funext i
  exact (shapeCast_addUnit_apply ![512] _ _ i).trans (congrArg _ (funext fun a => by match a with | ⟨0, _⟩ => rfl))

/-- What the second kernel's write-backs leave in the result array is the specification's function of the launch arguments. -/
theorem res1_eq (c : Dev nD) : res1 m ρ c
    = Cert.Spec.out (m ((c : Thread nD τ).loc main_arg0)) (m ((c : Thread nD τ).loc main_arg1)) (m ((c : Thread nD τ).loc main_arg2)) (m ((c : Thread nD τ).loc main_arg3)) := by
  unfold res1
  rw [arr1_out (Vin1 m ρ) c, Vin1_u, Vin1_h, Vin1_a, Vin1_b]
  exact (Cert.Spec.out_eq_attend _ _ _ _).symm

/-- The idealized kernel's run with its result named: every weakly fair execution terminates with the result array at the
    specification's function of the arguments, the arguments unchanged. -/
theorem run_value : θ_run defs (onTc (τ := τ) (main (F := Ideal))) ⟨m, fun _ => 0, ρ⟩ (fun r => ∀ c : Dev nD,
      r.2.mem ((c.tc : Thread nD τ).loc main_v2)
        = Cert.Spec.out (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (res1_eq m ρ c), (h c).2⟩) (run_read m ρ)

end Cert.KernelIdeal.HandValue

end
-- ==== Proof.LibSoftmaxMean.lean ====
/-
  Extended-real algebra used to compare a softmax-weighted mean with a plain weighted mean.

  The extended reals contain the real numbers; sums, products, differences, quotients by a
  nonzero real, the exponential, the logarithm of a positive real, and the maximum of two reals
  all stay inside the reals. On reals the following identity holds: for weights a_s > 0, scores
  c_s, values h_s and any real M,

      sum_s [ exp (c_s / 1 + log a_s - M) / (0 + sum_t exp (c_t / 1 + log a_t - M)) ] h_s
        = (sum_s a_s exp (c_s) h_s) / (sum_s a_s exp (c_s)),

  because exp (c + log a - M) = a exp (c) exp (-M) and the factor exp (-M) > 0 is common to the
  numerator and the denominator.
-/
import Idealize.ShloMosaic.PureOps.Ideal
import Mathlib.Data.Finset.Fold

noncomputable section

namespace Cert.LibSoftmaxMean

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem IsReal.of_ne {x : EReal} (ht : x ≠ ⊤) (hb : x ≠ ⊥) : IsReal x :=
  ⟨x.toReal, (EReal.coe_toReal ht hb).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (hf : ∀ i, IsReal (f i)) :
    IsReal (∑ i ∈ s, f i) := by
  classical
  induction s using Finset.induction_on with
  | empty => rw [Finset.sum_empty]; exact IsReal.zero
  | insert a s ha ih => rw [Finset.sum_insert ha]; exact (hf a).add ih

/-- A real divided by a nonzero real is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun e => h0 (by rw [e]; rfl)
  rw [Ideal.div_coe hb]; exact (IsReal.coe a).mul (IsReal.coe _)

/-- The clamp max (sqrt x) e of a real x by a real e is a real, whatever the sign of x: the square
    root of a negative real is the bottom element, which the maximum discards. -/
theorem IsReal.max_sqrt {x e : EReal} (hx : IsReal x) (he : IsReal e) : IsReal (max (Ideal.sqrt x) e) := by
  obtain ⟨a, rfl⟩ := hx; obtain ⟨b, rfl⟩ := he
  rw [Ideal.sqrt_coe]
  split_ifs
  · rw [max_eq_right bot_le]; exact ⟨b, rfl⟩
  · exact ⟨max (Real.sqrt a) b, EReal.coe_strictMono.monotone.map_max⟩

theorem IsReal.exp {x : EReal} (hx : IsReal x) : IsReal (Ideal.exp x) := by
  obtain ⟨a, rfl⟩ := hx; exact ⟨Real.exp a, rfl⟩

theorem IsReal.log {x : EReal} (hx : IsReal x) (hpos : 0 < x) : IsReal (Ideal.log x) := by
  obtain ⟨a, rfl⟩ := hx
  have ha : 0 < a := EReal.coe_pos.mp hpos
  rw [Ideal.log_coe, if_neg (not_le.mpr ha)]; exact ⟨Real.log a, rfl⟩

/-- The maximum over a nonempty finite family of reals, started from any value other than the top
    element, is a real: it is below the top because every entry and the start are, and it is above
    the bottom because it is at least one of the entries. -/
theorem IsReal.fold_max {ι : Type*} (s : Finset ι) (hs : s.Nonempty) (b : EReal) (hb : b ≠ ⊤)
    (f : ι → EReal) (hf : ∀ i, IsReal (f i)) : IsReal (s.fold max b f) := by
  refine IsReal.of_ne (ne_of_lt ?_) (ne_of_gt ?_)
  · exact (Finset.fold_max_lt _).mpr ⟨lt_top_iff_ne_top.mpr hb, fun i _ => lt_top_iff_ne_top.mpr (hf i).ne_top⟩
  · obtain ⟨i, hi⟩ := hs
    exact (Finset.lt_fold_max _).mpr (Or.inr ⟨i, hi, bot_lt_iff_ne_bot.mpr (hf i).ne_bot⟩)

/-- The single-precision patterns of 1, of -inf and of the small constant, read exactly. -/
theorem ofBits_one : Ideal.ofBits .f32 0x3F800000#32 = 1 := by
  simp [Ideal.ofBits, Ideal.ieee, -EReal.coe_mul]
  norm_num

theorem ofBits_neg_inf : Ideal.ofBits .f32 0xFF800000#32 = ⊥ := by simp [Ideal.ofBits, Ideal.ieee]

theorem ofBits_zero : Ideal.ofBits .f32 0x00000000#32 = 0 := by simp [Ideal.ofBits, Ideal.ieee]

theorem ofBits_eps : ∃ e : ℝ, 0 < e ∧ Ideal.ofBits .f32 0x322BCC77#32 = (e : EReal) := by
  refine ⟨_, ?_, by simp [Ideal.ofBits, Ideal.ieee]; rfl⟩
  positivity

/-- Division by one is the identity. -/
theorem div_one (x : EReal) : Ideal.div x 1 = x := by
  have h := Ideal.div_coe (y := 1) one_ne_zero x
  rw [EReal.coe_one] at h
  rw [h]; simp

/-- The softmax-weighted mean is the plain weighted mean: for real scores C, real values H, positive
    real weights A and a real shift M, the common factor exp (-M) cancels between the numerator and
    the denominator, and exp (log a) = a turns each exponential into the weight a exp (c). -/
theorem softmax_mean {ι : Type*} [Fintype ι] [Nonempty ι] (C H A : ι → EReal) (M : EReal)
    (hC : ∀ s, IsReal (C s)) (hH : ∀ s, IsReal (H s)) (hA : ∀ s, IsReal (A s)) (hpos : ∀ s, 0 < A s)
    (hM : IsReal M) :
    ∑ s, Ideal.div (Ideal.exp (Ideal.div (C s) 1 + Ideal.log (A s) - M))
          (0 + ∑ t, Ideal.exp (Ideal.div (C t) 1 + Ideal.log (A t) - M)) * H s
      = Ideal.div (∑ s, A s * Ideal.exp (C s) * H s) (∑ s, A s * Ideal.exp (C s)) := by
  choose c hc using hC
  choose h hh using hH
  choose a ha using hA
  obtain ⟨m, rfl⟩ := hM
  have hapos : ∀ s, 0 < a s := fun s => EReal.coe_pos.mp (by rw [← ha s]; exact hpos s)
  have hexp : ∀ s, Ideal.exp (Ideal.div (C s) 1 + Ideal.log (A s) - (m : EReal))
      = ((a s * Real.exp (c s) * Real.exp (-m) : ℝ) : EReal) := by
    intro s
    rw [div_one, hc s, ha s, Ideal.log_coe, if_neg (not_le.mpr (hapos s)), ← EReal.coe_add, ← EReal.coe_sub,
      Ideal.exp_coe, sub_eq_add_neg, Real.exp_add, Real.exp_add, Real.exp_log (hapos s), mul_comm (Real.exp (c s))]
  have hZ : 0 < ∑ s, a s * Real.exp (c s) :=
    Finset.sum_pos (fun s _ => mul_pos (hapos s) (Real.exp_pos _)) Finset.univ_nonempty
  have hE : 0 < Real.exp (-m) := Real.exp_pos _
  have hden : (0 : EReal) + ∑ t, Ideal.exp (Ideal.div (C t) 1 + Ideal.log (A t) - (m : EReal))
      = (((∑ s, a s * Real.exp (c s)) * Real.exp (-m) : ℝ) : EReal) := by
    rw [zero_add, Finset.sum_mul, coe_sum]
    exact Finset.sum_congr rfl fun t _ => hexp t
  have hw : ∀ s, A s * Ideal.exp (C s) = ((a s * Real.exp (c s) : ℝ) : EReal) := by
    intro s; rw [hc s, ha s, Ideal.exp_coe, ← EReal.coe_mul]
  have hnum : ∑ s, A s * Ideal.exp (C s) * H s = ((∑ s, a s * Real.exp (c s) * h s : ℝ) : EReal) := by
    rw [coe_sum]
    exact Finset.sum_congr rfl fun s _ => by rw [hw s, hh s, ← EReal.coe_mul]
  have hsum : ∑ s, A s * Ideal.exp (C s) = ((∑ s, a s * Real.exp (c s) : ℝ) : EReal) := by
    rw [coe_sum]
    exact Finset.sum_congr rfl fun s _ => hw s
  have hterm : ∀ s, Ideal.div (Ideal.exp (Ideal.div (C s) 1 + Ideal.log (A s) - (m : EReal)))
        (((∑ s, a s * Real.exp (c s)) * Real.exp (-m) : ℝ) : EReal) * H s
      = ((a s * Real.exp (c s) * h s * (1 / ∑ s, a s * Real.exp (c s)) : ℝ) : EReal) := by
    intro s
    rw [hexp s, Ideal.div_coe (ne_of_gt (mul_pos hZ hE)), hh s, ← EReal.coe_mul, ← EReal.coe_mul]
    congr 1
    field_simp
  rw [hden]
  refine (Finset.sum_congr rfl fun s _ => hterm s).trans ?_
  rw [hnum, hsum, Ideal.div_coe (ne_of_gt hZ), ← EReal.coe_mul, ← coe_sum, ← Finset.sum_mul]

end Cert.LibSoftmaxMean

end
-- ==== Proof.RefStages.lean ====
/-
  The reference program read one entry at a time.

  Each operation of the reference is a stage; read at an index, the stages compose to the
  quantities of the specification: the projection x · w, the clamped row length, the scaled rows,
  their inner products, then the logits c_rs / 1 + log (adj_rs + eps), their row maximum M_r, the
  shifted exponentials exp (logit_rs - M_r), their row sums, the attention weights, and finally
  the weighted sum of the projected rows plus the bias.
-/
import proofs.«146084_j48653389529424_2_alg».proof.Defs
import proofs.«146084_j48653389529424_2_alg».proof.Proof.Gen.ReferenceIdeal.Read
import proofs.«146084_j48653389529424_2_alg».proof.Proof.Spec
import Idealize.ShloMosaic.Lib.ValueIdx
import proofs.«146084_j48653389529424_2_alg».proof.Proof.LibSoftmaxMean
import Idealize.ShloMosaic.PureOps.Ideal.Laws

noncomputable section

namespace Cert.ReferenceIdeal.RefStages

open Idealize.ShloMosaic Idealize.ShloMosaic.ValueIdx Cert.ReferenceIdeal Cert.ReferenceIdeal.Read Cert.LibSoftmaxMean

variable (x : Cert.Spec.SX.Idx → EReal) (a : Cert.Spec.SA.Idx → EReal) (w : Cert.Spec.SW.Idx → EReal)
  (b : Cert.Spec.SB.Idx → EReal)

/-- Entry (r, j) of the first product is the projection's entry. -/
theorem proj_eq (r : Fin 8192) (j : Fin 512) :
    val_main_v0 (F := Ideal) x w (ix2 r j) = Cert.Spec.proj x w r j := by
  rw [val_main_v0_apply]
  unfold Cert.Spec.proj
  refine Finset.sum_congr rfl fun k _ => ?_
  have e1 : lidx_main_v0 (ix2 r j) k = ix2 r k :=
    funext fun d => Fin.ext (by match d with | ⟨0, _⟩ => rfl | ⟨1, _⟩ => rfl)
  have e2 : ridx_main_v0 (ix2 r j) k = ix2 k j :=
    funext fun d => Fin.ext (by match d with | ⟨0, _⟩ => rfl | ⟨1, _⟩ => rfl)
  rw [e1, e2]

/-- The row sum of squares of the projection. -/
theorem sumsq_eq (r : Fin 8192) :
    val_main_call0_v1 (F := Ideal) x w (ix1 r) = ∑ j : Fin 512, Cert.Spec.proj x w r j * Cert.Spec.proj x w r j := by
  rw [val_main_call0_v1_apply, val_main_call0_cst_apply, Ideal.ofBits_def, Ideal.ofBits_zero_f32, zero_add]
  refine Finset.sum_congr rfl fun k _ => ?_
  have e : idx_main_call0_v1 (ix1 r) k = ix2 r k :=
    funext fun d => Fin.ext (by match d with | ⟨0, _⟩ => rfl | ⟨1, _⟩ => rfl)
  rw [e, val_main_call0_v0_apply, Ideal.mulf_def, proj_eq]

/-- The clamped length of row r. -/
theorem len_eq (r : Fin 8192) :
    val_main_v3 (F := Ideal) x w (ix2 r (0 : Fin 1)) = Cert.Spec.len x w r := by
  rw [val_main_v3_apply, val_main_v1_apply, val_main_call0_v2_apply, val_main_v2_apply, val_main_cst_apply]
  have e : idx_main_call0_v2 (ix2 r (0 : Fin 1)) = ix1 r :=
    funext fun d => Fin.ext (by match d with | ⟨0, _⟩ => rfl)
  rw [e, sumsq_eq]
  rfl

/-- Entry (r, j) of the scaled rows. -/
theorem unit_eq (r : Fin 8192) (j : Fin 512) :
    val_main_v5 (F := Ideal) x w (ix2 r j) = Cert.Spec.unit x w r j := by
  rw [val_main_v5_apply, val_main_v4_apply, proj_eq]
  have e : idx_main_v4 (ix2 r j) = ix2 r (0 : Fin 1) :=
    funext fun d => Fin.ext (by match d with | ⟨0, _⟩ => rfl | ⟨1, _⟩ => rfl)
  rw [e, len_eq]
  rfl

/-- Entry (r, s) of the product of the scaled rows with their transpose. -/
theorem cosim_eq (r s : Fin 8192) :
    val_main_v7 (F := Ideal) x w (ix2 r s) = Cert.Spec.cosim x w r s := by
  rw [val_main_v7_apply]
  unfold Cert.Spec.cosim
  refine Finset.sum_congr rfl fun k _ => ?_
  have e1 : lidx_main_v7 (ix2 r s) k = ix2 r k :=
    funext fun d => Fin.ext (by match d with | ⟨0, _⟩ => rfl | ⟨1, _⟩ => rfl)
  have e2 : ridx_main_v7 (ix2 r s) k = ix2 k s :=
    funext fun d => Fin.ext (by match d with | ⟨0, _⟩ => rfl | ⟨1, _⟩ => rfl)
  have e3 : idx_main_v6 (ix2 k s) = ix2 s k :=
    funext fun d => Fin.ext (by match d with | ⟨0, _⟩ => rfl | ⟨1, _⟩ => rfl)
  rw [e1, e2, val_main_v6_apply, e3, unit_eq, unit_eq]

/-- The logit of the pair (r, s): the similarity over the temperature 1, plus the logarithm of the
    shifted adjacency entry. -/
def logit (r s : Fin 8192) : EReal :=
  Ideal.div (Cert.Spec.cosim x w r s) 1 + Ideal.log (a (ix2 r s) + Cert.Spec.eps)

theorem logit_eq (r s : Fin 8192) :
    val_main_v13 (F := Ideal) x a w (ix2 r s) = logit x a w r s := by
  rw [val_main_v13_apply, val_main_v9_apply, val_main_v12_apply, val_main_v11_apply, val_main_v8_apply,
    val_main_cst_0_apply, val_main_v10_apply, val_main_cst_1_apply, cosim_eq, Ideal.ofBits_def, Cert.LibSoftmaxMean.ofBits_one]
  rfl

/-- The row maximum of the logits as the reference computes it: the maximum of -inf and a fold of
    maxima over the row, started from -inf. -/
def rowmax (r : Fin 8192) : EReal := val_main_v16 (F := Ideal) x a w (ix1 r)

/-- When every logit is a real number, so is the row maximum: the leading maximum with -inf changes
    nothing, and a fold of maxima over the 8192 entries of a row, started from -inf, is at least one
    of the entries and below +inf. -/
theorem rowmax_real (r : Fin 8192) (hy : ∀ r s, IsReal (logit x a w r s)) : IsReal (rowmax x a w r) := by
  have hy' : ∀ i, IsReal (val_main_v13 (F := Ideal) x a w i) := by
    intro i
    obtain ⟨p, q, rfl⟩ : ∃ (p q : Fin 8192), i = ix2 p q := ⟨i 0, i 1, eq_ix2 i⟩
    rw [logit_eq]; exact hy p q
  unfold rowmax
  rw [val_main_v16_apply, val_main_v15_apply, val_main_cst_3_apply, Ideal.ofBits_def, ofBits_neg_inf,
    Ideal.maximumf_def, max_eq_right bot_le]
  unfold val_main_v14
  generalize val_main_v13 (F := Ideal) x a w = y at hy' ⊢
  rw [Host.reduce_eq_fold_single (FloatOps.maximumf (F := Ideal) (φ := .f32)) y _
    Gen.reducesTo_S8192x8192_S8192_d1 (by decide) Gen.h_S_ (ix1 r)]
  refine IsReal.fold_max _ ⟨⟨0, by decide⟩, Finset.mem_univ _⟩ _ ?_ _ (fun k => hy' _)
  rw [val_main_cst_2_apply, Ideal.ofBits_def, ofBits_neg_inf]
  exact bot_ne_top

/-- The shifted exponential of the pair (r, s). -/
theorem exp_eq (r s : Fin 8192) :
    val_main_v20 (F := Ideal) x a w (ix2 r s) = Ideal.exp (logit x a w r s - rowmax x a w r) := by
  rw [val_main_v20_apply, val_main_v19_apply, val_main_v18_apply, val_main_v17_apply, logit_eq]
  have e : idx_main_v17 (idx_main_v18 (ix2 r s)) = ix1 r :=
    funext fun d => Fin.ext (by match d with | ⟨0, _⟩ => rfl)
  rw [e]
  rfl

/-- The row sum of the shifted exponentials. -/
theorem expsum_eq (r : Fin 8192) :
    val_main_v21 (F := Ideal) x a w (ix1 r) = 0 + ∑ t : Fin 8192, Ideal.exp (logit x a w r t - rowmax x a w r) := by
  rw [val_main_v21_apply, val_main_cst_4_apply, Ideal.ofBits_def, Ideal.ofBits_zero_f32]
  refine congrArg (0 + ·) (Finset.sum_congr rfl fun k _ => ?_)
  have e : idx_main_v21 (ix1 r) k = ix2 r k :=
    funext fun d => Fin.ext (by match d with | ⟨0, _⟩ => rfl | ⟨1, _⟩ => rfl)
  rw [e, exp_eq]

/-- The attention weight of the pair (r, s). -/
theorem attn_eq (r s : Fin 8192) :
    val_main_v24 (F := Ideal) x a w (ix2 r s)
      = Ideal.div (Ideal.exp (logit x a w r s - rowmax x a w r))
          (0 + ∑ t : Fin 8192, Ideal.exp (logit x a w r t - rowmax x a w r)) := by
  rw [val_main_v24_apply, val_main_v23_apply, val_main_v22_apply, exp_eq]
  have e : idx_main_v22 (idx_main_v23 (ix2 r s)) = ix1 r :=
    funext fun d => Fin.ext (by match d with | ⟨0, _⟩ => rfl)
  rw [e, expsum_eq]
  rfl

/-- Entry (r, j) of the result. -/
theorem out_eq (r : Fin 8192) (j : Fin 512) :
    val_main_v28 (F := Ideal) x a w b (ix2 r j)
      = (∑ s : Fin 8192, Ideal.div (Ideal.exp (logit x a w r s - rowmax x a w r))
            (0 + ∑ t : Fin 8192, Ideal.exp (logit x a w r t - rowmax x a w r)) * Cert.Spec.proj x w s j)
        + b (ix1 j) := by
  rw [val_main_v28_apply, val_main_v25_apply, val_main_v27_apply, val_main_v26_apply, Ideal.addf_def]
  have e0 : idx_main_v26 (idx_main_v27 (ix2 r j)) = ix1 j :=
    funext fun d => Fin.ext (by match d with | ⟨0, _⟩ => rfl)
  rw [e0]
  refine congrArg (· + b (ix1 j)) (Finset.sum_congr rfl fun k _ => ?_)
  have e1 : lidx_main_v25 (ix2 r j) k = ix2 r k :=
    funext fun d => Fin.ext (by match d with | ⟨0, _⟩ => rfl | ⟨1, _⟩ => rfl)
  have e2 : ridx_main_v25 (ix2 r j) k = ix2 k j :=
    funext fun d => Fin.ext (by match d with | ⟨0, _⟩ => rfl | ⟨1, _⟩ => rfl)
  rw [e1, e2, attn_eq, proj_eq]

end Cert.ReferenceIdeal.RefStages

end
-- ==== Proof.RefReal.lean ====
/-
  Under the domain hypothesis every quantity of the specification is a real number.

  Every argument entry is real, so the projection (a finite sum of products) is real; the clamped
  row length max (sqrt S) eps is real and at least eps > 0, so in particular not zero; the scaled
  rows (a real over a nonzero real) and their inner products are real; and each adjacency entry
  plus eps is a positive real, so its logarithm is real.
-/
import proofs.«146084_j48653389529424_2_alg».proof.Proof.Spec
import proofs.«146084_j48653389529424_2_alg».proof.Proof.LibSoftmaxMean

noncomputable section

namespace Cert.ReferenceIdeal.RefReal

open Idealize.ShloMosaic Idealize.ShloMosaic.ValueIdx Cert.LibSoftmaxMean Cert.Spec

/-- The small constant is a positive real number. -/
theorem eps_pos_real : ∃ e : ℝ, 0 < e ∧ Cert.Spec.eps = (e : EReal) := Cert.LibSoftmaxMean.ofBits_eps

theorem isReal_eps : IsReal eps := by
  obtain ⟨e, _, he⟩ := eps_pos_real; exact ⟨e, he⟩

theorem eps_pos : 0 < eps := by
  obtain ⟨e, hpos, he⟩ := eps_pos_real; rw [he]; exact EReal.coe_pos.mpr hpos

variable {x : SX.Idx → EReal} {a : SA.Idx → EReal} {w : SW.Idx → EReal} {b : SB.Idx → EReal}

theorem isReal_proj (h : Dom x a w b) (r : Fin 8192) (j : Fin 512) : IsReal (proj x w r j) :=
  IsReal.sum _ _ fun k => IsReal.mul (h.fin_x _) (h.fin_w _)

theorem isReal_len (h : Dom x a w b) (r : Fin 8192) : IsReal (len x w r) :=
  IsReal.max_sqrt (IsReal.sum _ _ fun j => IsReal.mul (isReal_proj h r j) (isReal_proj h r j)) isReal_eps

/-- The clamped length is at least eps, hence positive and not zero. -/
theorem len_ne_zero (r : Fin 8192) : len x w r ≠ 0 :=
  ne_of_gt (lt_of_lt_of_le eps_pos (le_max_right _ _))

theorem isReal_unit (h : Dom x a w b) (r : Fin 8192) (j : Fin 512) : IsReal (unit x w r j) :=
  IsReal.div (isReal_proj h r j) (isReal_len h r) (len_ne_zero r)

theorem isReal_cosim (h : Dom x a w b) (r s : Fin 8192) : IsReal (cosim x w r s) :=
  IsReal.sum _ _ fun j => IsReal.mul (isReal_unit h r j) (isReal_unit h s j)

theorem isReal_shift (h : Dom x a w b) (i : SA.Idx) : IsReal (a i + eps) :=
  IsReal.add (h.fin_a i) isReal_eps

end Cert.ReferenceIdeal.RefReal

end
-- ==== Proof.RefValue.lean ====
/-
  The reference's result, read index by index, is the specification's function of the arguments.

  Read at an entry (r, j), the reference's result is the sum over s of the attention weight of
  (r, s) times the projected entry (s, j), plus the bias; the attention weights are the shifted
  exponentials exp (logit_rs - M_r) over their row sum. Under the domain hypothesis every similarity,
  every projected entry and the row maximum M_r are real numbers and every shifted adjacency entry is
  a positive real, so the softmax-weighted mean is the plain weighted mean with weights
  (adj_rs + eps) exp (c_rs): the specification.
-/
import proofs.«146084_j48653389529424_2_alg».proof.Defs
import proofs.«146084_j48653389529424_2_alg».proof.Proof.Gen.ReferenceIdeal.Read
import proofs.«146084_j48653389529424_2_alg».proof.Proof.Spec
import proofs.«146084_j48653389529424_2_alg».proof.Proof.LibSoftmaxMean
import proofs.«146084_j48653389529424_2_alg».proof.Proof.RefStages
import proofs.«146084_j48653389529424_2_alg».proof.Proof.RefReal
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.LibSoftmaxMean

/-- Under the domain hypothesis every logit is a real number: a real similarity over 1, plus the
    logarithm of a positive real. -/
theorem isReal_logit {x : Cert.Spec.SX.Idx → EReal} {a : Cert.Spec.SA.Idx → EReal} {w : Cert.Spec.SW.Idx → EReal}
    {b : Cert.Spec.SB.Idx → EReal} (h : Cert.Spec.Dom x a w b) (r s : Fin 8192) :
    IsReal (RefStages.logit x a w r s) := by
  unfold RefStages.logit
  rw [Cert.LibSoftmaxMean.div_one]
  exact IsReal.add (RefReal.isReal_cosim h r s) (IsReal.log (RefReal.isReal_shift h _) (h.pos_a _))

/-- On the domain, the reference computes the specification's function. -/
theorem ref_eq_spec (x : Cert.Spec.SX.Idx → EReal) (a : Cert.Spec.SA.Idx → EReal) (w : Cert.Spec.SW.Idx → EReal)
    (b : Cert.Spec.SB.Idx → EReal) (h : Cert.Spec.Dom x a w b) :
    Cert.ReferenceIdeal.Read.val_main_v28 (F := Ideal) x a w b = Cert.Spec.out x a w b := by
  funext i
  obtain ⟨r, j, rfl⟩ : ∃ (r : Fin 8192) (j : Fin 512), i = ix2 r j := ⟨i 0, i 1, eq_ix2 i⟩
  rw [RefStages.out_eq]
  show _ = Ideal.div (Cert.Spec.num x a w r j) (Cert.Spec.den x a w r) + b (ix1 j)
  refine congrArg (· + b (ix1 j)) ?_
  unfold Cert.Spec.num Cert.Spec.den Cert.Spec.wgt RefStages.logit
  exact softmax_mean (fun s => Cert.Spec.cosim x w r s) (fun s => Cert.Spec.proj x w s j)
    (fun s => a (ix2 r s) + Cert.Spec.eps) (RefStages.rowmax x a w r)
    (fun s => RefReal.isReal_cosim h r s) (fun s => RefReal.isReal_proj h s j)
    (fun s => RefReal.isReal_shift h _) (fun s => h.pos_a _)
    (RefStages.rowmax_real x a w r (fun p q => isReal_logit h p q))

end Cert.ReferenceIdeal.RefValue

end
-- ==== Proof.Domain.lean ====
/-
  The precondition, decoded: every argument entry is a real number and every adjacency entry plus
  the small constant is positive.

  The printed precondition is a conjunction of five "for all entries" tests, each an and-reduction
  of a one-bit array over every axis. Four of them test |v| < +inf entry by entry, where |v| is
  max v (-v) on the extended reals; the fifth tests v + eps > 0 on the adjacency entries. A
  conjunction of one-bit words equal to 1 has every conjunct equal to 1, an and-reduction equal
  to 1 has every reduced entry equal to 1, and a comparison word equal to 1 says the comparison
  holds. An extended real v with max v (-v) < +inf is neither +inf nor -inf, so it is a real.
-/
import proofs.«146084_j48653389529424_2_alg».proof.Pre_finite_inputs
import proofs.«146084_j48653389529424_2_alg».proof.Proof.Spec
import Idealize.ShloMosaic.Lib.ValueIdx
import Idealize.ShloMosaic.Lib.ReduceAll
import Idealize.ShloMosaic.PureOps.Ideal.Laws

noncomputable section

namespace Cert.Domain

open Idealize.ShloMosaic Idealize.ShloMosaic.ValueIdx

/-- The shape of rank 0 has exactly one index. -/
instance : Subsingleton Cert.Pre_finite_inputs.S_.Idx := ⟨fun a b => funext fun d => d.elim0⟩

/-- The one-bit word of a truth value is 1 exactly when the value is true. -/
theorem ofBool_eq_one (c : Bool) : BitVec.ofBool c = 1#1 ↔ c = true := by cases c <;> decide

/-- The single-precision pattern of +inf denotes the top of the extended reals. -/
theorem ofBits_inf : Ideal.ofBits .f32 0x7F800000#32 = ⊤ := by simp [Ideal.ofBits, Ideal.ieee]

/-- An extended real whose absolute value max v (-v) is strictly below +inf is a real number:
    at v = +inf the maximum is +inf, and at v = -inf it is -(-inf) = +inf. -/
theorem real_of_abs_lt (v : EReal)
    (h : FloatOps.cmpf (F := Ideal) (φ := .f32) .olt (FloatOps.hostAbsf (F := Ideal) (φ := .f32) v)
          (FloatOps.ofBits (F := Ideal) .f32 0x7F800000#32) = 1#1) :
    ∃ r : ℝ, v = (r : EReal) := by
  have h' : Ideal.cmp .olt (max v (-v)) (Ideal.ofBits .f32 0x7F800000#32) = 1#1 := h
  rw [ofBits_inf] at h'
  simp only [Ideal.cmp, ofBool_eq_one, decide_eq_true_eq] at h'
  induction v using EReal.rec with
  | bot => simp at h'
  | top => simp at h'
  | coe r => exact ⟨r, rfl⟩

/-- The comparison "v + eps > 0" answering 1 says that v + eps is positive. -/
theorem pos_of_cmp (v : EReal)
    (h : FloatOps.cmpf (F := Ideal) (φ := .f32) .ogt
          (FloatOps.addf (F := Ideal) (φ := .f32) v (FloatOps.ofBits (F := Ideal) .f32 0x322BCC77#32))
          (FloatOps.ofBits (F := Ideal) .f32 0x00000000#32) = 1#1) :
    0 < v + Cert.Spec.eps := by
  have h' : Ideal.cmp .ogt (v + Cert.Spec.eps) (Ideal.ofBits .f32 0x00000000#32) = 1#1 := h
  rw [Ideal.ofBits_zero_f32] at h'
  simpa only [Ideal.cmp, ofBool_eq_one, decide_eq_true_eq] using h'

/-- The precondition gives, entry by entry, that the four arguments hold real numbers and that
    every adjacency entry plus the small constant is positive. -/
theorem dom_of_pre [Cert.Pre_finite_inputs.Facts]
    (x : Cert.Spec.SX.Idx → EReal) (a : Cert.Spec.SA.Idx → EReal) (w : Cert.Spec.SW.Idx → EReal)
    (b : Cert.Spec.SB.Idx → EReal)
    (h : Cert.Pre_finite_inputs.fn (F := Ideal) x a w b = (fun _ => 1#1)) : Cert.Spec.Dom x a w b := by
  have h0 := congrFun h ValueIdx.ix0
  dsimp only [Cert.Pre_finite_inputs.fn, Cert.Pre_finite_inputs.fn_part1] at h0
  obtain ⟨h18, h23⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  refine ⟨fun i => ?_, fun i => ?_, fun i => ?_, fun i => ?_, fun i => ?_⟩
  · exact real_of_abs_lt (x i) (Host.reduce_andi_all _ _ _ _ _ h3 i)
  · exact real_of_abs_lt (a i) (Host.reduce_andi_all _ _ _ _ _ h7 i)
  · exact real_of_abs_lt (w i) (Host.reduce_andi_all _ _ _ _ _ h12 i)
  · exact real_of_abs_lt (b i) (Host.reduce_andi_all _ _ _ _ _ h17 i)
  · exact pos_of_cmp (a i) (Host.reduce_andi_all _ _ _ _ _ h23 i)

end Cert.Domain

end
-- ==== Proof.lean ====
/-
  The five claims.

  Frames of the kernel program (as printed, and idealized): the program is the first kernel's
  region, a host reshape of the bias to a row, and the second kernel's region; each region runs
  its body at every grid point, and no segment writes an argument array, so every weakly fair
  execution terminates, nothing faulting, with the arguments unchanged. The reference's frame is
  its straight-line run.

  No operation of the kernel was rewritten by the idealization, so there is nothing to preserve.

  Equal results on the extended reals. The idealized kernel's result array holds, row r and column
  j, (sum_s p_rs h_sj) / (sum_s p_rs) + b_j with h = x·w, u = h scaled row by row by the clamped
  length, and p_rs = (adj_rs + eps)·exp(u_r · u_s): the first kernel writes h and u tile by tile,
  the second accumulates both sums over the eight key tiles of each query tile and divides at the
  last. The reference computes softmax(u·uᵀ + log(adj + eps))·h + b. Under the precondition every
  entry is a real number and adj + eps is positive, so exp(log(adj + eps)) = adj + eps and the
  softmax's common factor cancels: the two results are one function of the arguments.
-/
import proofs.«146084_j48653389529424_2_alg».proof.Defs
import proofs.«146084_j48653389529424_2_alg».proof.Proof.Gen.Kernel
import proofs.«146084_j48653389529424_2_alg».proof.Proof.Gen.KernelIdeal
import proofs.«146084_j48653389529424_2_alg».proof.Proof.Gen.ReferenceIdeal
import proofs.«146084_j48653389529424_2_alg».proof.Proof.Gen.Pre_finite_inputs
import proofs.«146084_j48653389529424_2_alg».proof.Proof.Gen.ReferenceIdeal.Run
import proofs.«146084_j48653389529424_2_alg».proof.Proof.Gen.ReferenceIdeal.Read
import proofs.«146084_j48653389529424_2_alg».proof.Proof.RunReads
import proofs.«146084_j48653389529424_2_alg».proof.Proof.RunReadsK
import proofs.«146084_j48653389529424_2_alg».proof.Proof.KernelValue
import proofs.«146084_j48653389529424_2_alg».proof.Proof.RefValue
import proofs.«146084_j48653389529424_2_alg».proof.Proof.Domain
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the specification's function of the arguments: the kernel's by its value run, the reference's by
    its run read index by index, under what the precondition says of the arguments. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.HandValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2]
  exact Cert.ReferenceIdeal.RefValue.ref_eq_spec _ _ _ _ (Cert.Domain.dom_of_pre _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
